-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "recip_inv_scale" .f32 0x41B504F3#32 ((268435456 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x512 : Shape := ⟨3, ![32, 64, 512]⟩
abbrev S32x4096x512 : Shape := ⟨3, ![32, 4096, 512]⟩
abbrev S32x64x4096 : Shape := ⟨3, ![32, 64, 4096]⟩
abbrev S512x512 : Shape := ⟨2, ![512, 512]⟩
abbrev S512 : Shape := ⟨1, ![512]⟩
abbrev S_ : Shape := ⟨0, ![]⟩

class Facts : Prop where
  bcast_S_S32x64x512 : S_.BroadcastsInDim S32x64x512 (![] : Fin 0 → Fin S32x64x512.rank)
  reducesTo_S32x64x512_S_d0_1_2 : S32x64x512.ReducesTo [0, 1, 2] S_
  h_S_ : 0 < S_.numel
  bcast_S_S32x4096x512 : S_.BroadcastsInDim S32x4096x512 (![] : Fin 0 → Fin S32x4096x512.rank)
  reducesTo_S32x4096x512_S_d0_1_2 : S32x4096x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512x512 .f32) (main_arg6 : FVec F S512 .f32) (main_arg7 : FVec F S512x512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_v33

def fn {F : FTy → Type} [FloatOps F] (main_arg0 : FVec F S32x64x512 .f32) (main_arg1 : FVec F S32x4096x512 .f32) (main_arg2 : IVec S32x64x4096 1) (main_arg3 : FVec F S512x512 .f32) (main_arg4 : FVec F S512 .f32) (main_arg5 : FVec F S512x512 .f32) (main_arg6 : FVec F S512 .f32) (main_arg7 : FVec F S512x512 .f32) (main_arg8 : FVec F S512 .f32) : IVec S_ 1 :=
  let main_v0 : FVec F S32x64x512 .f32 := Host.absf main_arg0
  let main_cst : FVec F S_ .f32 := constant S_ .f32 0x7F800000#32
  let main_v1 : FVec F S32x64x512 .f32 := broadcastInDim S32x64x512 ![] bcast_S_S32x64x512 main_cst
  let main_v2 : IVec S32x64x512 1 := cmpf .olt main_v0 main_v1
  let main_c : IVec S_ 1 := constantI S_ 1 1#1
  let main_v3 : IVec S_ 1 := (fun x v => Host.reduce IntOp.andi x v reducesTo_S32x64x512_S_d0_1_2 h_S_) main_v2 main_c
  let main_v4 : FVec F S32x4096x512 .f32 := Host.absf main_arg1
  let main_cst_0 : FVec F S_ .f32 := constant S_ .f32 0x7F800000#32
  let main_v5 : FVec F S32x4096x512 .f32 := broadcastInDim S32x4096x512 ![] bcast_S_S32x4096x512 main_cst_0
  let main_v6 : IVec S32x4096x512 1 := cmpf .olt main_v4 main_v5
  let main_c_1 : IVec S_ 1 := constantI S_ 1 1#1
  let main_v7 : IVec S_ 1 := (fun x v => Host.reduce IntOp.andi x v reducesTo_S32x4096x512_S_d0_1_2 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S32x64x512 : Shape := ⟨3, ![32, 64, 512]⟩
abbrev S32x4096x512 : Shape := ⟨3, ![32, 4096, 512]⟩
abbrev S32x64x4096 : Shape := ⟨3, ![32, 64, 4096]⟩
abbrev S512x512 : Shape := ⟨2, ![512, 512]⟩
abbrev S512 : Shape := ⟨1, ![512]⟩
abbrev S1x64x512 : Shape := ⟨3, ![1, 64, 512]⟩
abbrev S1x2048x512 : Shape := ⟨3, ![1, 2048, 512]⟩
abbrev S64x512 : Shape := ⟨2, ![64, 512]⟩
abbrev S64x1 : Shape := ⟨2, ![64, 1]⟩
abbrev S1x512 : Shape := ⟨2, ![1, 512]⟩
abbrev S2048x512 : Shape := ⟨2, ![2048, 512]⟩
abbrev S64x2048 : Shape := ⟨2, ![64, 2048]⟩
abbrev S64 : Shape := ⟨1, ![64]⟩

abbrev nBuf : Space → Nat
  | .hbm => 16
  | .vmem => 16
  | .smem => 0
  | _ => 0

abbrev bufTy : (tb : Table) → Fin (tcTables nBuf tb) → BufTy
  | .hbm, ⟨0, _⟩ => ⟨S32x64x512, .f32⟩
  | .hbm, ⟨1, _⟩ => ⟨S32x4096x512, .f32⟩
  | .hbm, ⟨2, _⟩ => ⟨S32x64x4096, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .bf16⟩
  | .hbm, ⟨11, _⟩ => ⟨S512x512, .f32⟩
  | .hbm, ⟨12, _⟩ => ⟨S512x512, .bf16⟩
  | .hbm, ⟨13, _⟩ => ⟨S512x512, .f32⟩
  | .hbm, ⟨14, _⟩ => ⟨S512x512, .bf16⟩
  | .hbm, ⟨15, _⟩ => ⟨S32x64x512, .f32⟩
  | .local _ .vmem, ⟨0, _⟩ => ⟨S1x64x512, .f32⟩
  | .local _ .vmem, ⟨1, _⟩ => ⟨S1x64x512, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S1x64x512, .f32⟩
  | .local _ .vmem, ⟨11, _⟩ => ⟨S1x64x512, .f32⟩
  | .local _ .vmem, ⟨12, _⟩ => ⟨S64x512, .bf16⟩
  | .local _ .vmem, ⟨13, _⟩ => ⟨S64x1, .f32⟩
  | .local _ .vmem, ⟨14, _⟩ => ⟨S64x1, .f32⟩
  | .local _ .vmem, ⟨15, _⟩ => ⟨S64x512, .f32⟩
  | _, _ => ⟨S32x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v55 : BitVec 1 := Scalar.cmpi .eq arg1 c1_i32
  let v56 : BitVec 32 := Scalar.extui v55
  let c0_i32_29 : BitVec 32 := 0#32
  let v57 : BitVec 1 := Scalar.cmpi .ne v56 c0_i32_29
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  transposes_S512x512_S512x512_1_0 : S512x512.Transposes [1, 0] S512x512
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  packedbf16_S64x512_S64x512_0_0 : (Rect.unit (s := S64x512) ![0, 0] S64x512.size inb_S64x512_S64x512_0_0).PackedRows (EltTy.packing .bf16)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S1x512_S2048x512 : S1x512.Broadcasts S2048x512
  reduces_S64x2048_S64 : S64x2048.Reduces [1] S64
  shapeCasts_S64_S64x1 : S64.ShapeCasts S64x1
  broadcasts_S64x1_S64x2048 : S64x1.Broadcasts S64x2048
  broadcasts_S64x1_S64x512 : S64x1.Broadcasts S64x512
  shapeCasts_S64x512_S1x64x512 : S64x512.ShapeCasts S1x64x512
  dot_S64x512_S512x512_S64x512_1_0_0_1_n_n_wf : DotDims.WF S64x512 S512x512 S64x512 [1] [0] [0] [1] [] []
  dot_S2048x512_S512x512_S2048x512_1_0_0_1_n_n_wf : DotDims.WF S2048x512 S512x512 S2048x512 [1] [0] [0] [1] [] []
  dot_S64x512_S2048x512_S64x2048_1_1_0_0_n_n_wf : DotDims.WF S64x512 S2048x512 S64x2048 [1] [1] [0] [0] [] []
  dot_S64x2048_S2048x512_S64x512_1_0_0_1_n_n_wf : DotDims.WF S64x2048 S2048x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S32x64x512.size a
  hwx0_0 : ∀ i : grid0.Coords, EltTy.bits .f32 = 32 ∨ (Rect.block (s := S32x64x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S32x4096x512.size a
  hwx0_1 : ∀ i : grid0.Coords, EltTy.bits .f32 = 32 ∨ (Rect.block (s := S32x4096x512) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x512.size a ≤ S32x64x512.size a
  hwx0_8 : ∀ i : grid0.Coords, EltTy.bits .f32 = 32 ∨ (Rect.block (s := S32x64x512) S1x64x512.size (cc0_transform_8 i) (hinb0_8 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S64x512_S2048x512_S64x2048_1_1_0_0_n_n : DotDims S64x512 S2048x512 S64x2048 where
  lhsContracting := [1]
  rhsContracting := [1]
  lhsNonContracting := [0]
  rhsNonContracting := [0]
  lhsBatch := []
  rhsBatch := []
  wf := dot_S64x512_S2048x512_S64x2048_1_1_0_0_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x64x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S32x64x512 : Shape := ⟨3, ![32, 64, 512]⟩
abbrev S32x4096x512 : Shape := ⟨3, ![32, 4096, 512]⟩
abbrev S32x64x4096 : Shape := ⟨3, ![32, 64, 4096]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S32x64 : Shape := ⟨2, ![32, 64]⟩
abbrev S32x64x1 : Shape := ⟨3, ![32, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x64x512, .f32⟩
  | .hbm, ⟨1, _⟩ => ⟨S32x4096x512, .f32⟩
  | .hbm, ⟨2, _⟩ => ⟨S32x64x4096, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S32x64x512, .f32⟩
  | .hbm, ⟨10, _⟩ => ⟨S1x1x512, .f32⟩
  | .hbm, ⟨11, _⟩ => ⟨S32x64x512, .f32⟩
  | .hbm, ⟨12, _⟩ => ⟨S32x64x512, .f32⟩
  | .hbm, ⟨13, _⟩ => ⟨S32x4096x512, .f32⟩
  | .hbm, ⟨14, _⟩ => ⟨S1x1x512, .f32⟩
  | .hbm, ⟨15, _⟩ => ⟨S32x4096x512, .f32⟩
  | .hbm, ⟨16, _⟩ => ⟨S32x4096x512, .f32⟩
  | .hbm, ⟨17, _⟩ => ⟨S32x4096x512, .f32⟩
  | .hbm, ⟨18, _⟩ => ⟨S1x1x512, .f32⟩
  | .hbm, ⟨19, _⟩ => ⟨S32x4096x512, .f32⟩
  | .hbm, ⟨20, _⟩ => ⟨S32x4096x512, .f32⟩
  | .hbm, ⟨21, _⟩ => ⟨S32x64x4096, .f32⟩
  | .hbm, ⟨22, _⟩ => ⟨S_, .f32⟩
  | .hbm, ⟨23, _⟩ => ⟨S32x64x4096, .f32⟩
  | .hbm, ⟨24, _⟩ => ⟨S32x64x4096, .f32⟩
  | .hbm, ⟨25, _⟩ => ⟨S_, .f32⟩
  | .hbm, ⟨26, _⟩ => ⟨S32x64, .f32⟩
  | .hbm, ⟨27, _⟩ => ⟨S_, .f32⟩
  | .hbm, ⟨28, _⟩ => ⟨S32x64, .f32⟩
  | .hbm, ⟨29, _⟩ => ⟨S32x64, .f32⟩
  | .hbm, ⟨30, _⟩ => ⟨S32x64x1, .f32⟩
  | .hbm, ⟨31, _⟩ => ⟨S32x64x4096, .f32⟩
  | .hbm, ⟨32, _⟩ => ⟨S32x64x4096, .f32⟩
  | .hbm, ⟨33, _⟩ => ⟨S32x64x4096, .f32⟩
  | .hbm, ⟨34, _⟩ => ⟨S_, .f32⟩
  | .hbm, ⟨35, _⟩ => ⟨S32x64, .f32⟩
  | .hbm, ⟨36, _⟩ => ⟨S32x64x1, .f32⟩
  | .hbm, ⟨37, _⟩ => ⟨S32x64x4096, .f32⟩
  | .hbm, ⟨38, _⟩ => ⟨S32x64x4096, .f32⟩
  | .hbm, ⟨39, _⟩ => ⟨S32x64x512, .f32⟩
  | _, _ => ⟨S32x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x64x512_0_1_2 : S1x1x512.BroadcastsInDim S32x64x512 (![0, 1, 2] : Fin 3 → Fin S32x64x512.rank)
  bcast_S1x1x512_S32x4096x512_0_1_2 : S1x1x512.BroadcastsInDim S32x4096x512 (![0, 1, 2] : Fin 3 → Fin S32x4096x512.rank)
  bcast_S_S32x64x4096 : S_.BroadcastsInDim S32x64x4096 (![] : Fin 0 → Fin S32x64x4096.rank)
  reducesTo_S32x64x4096_S32x64_d2 : S32x64x4096.ReducesTo [2] S32x64
  h_S_ : 0 < S_.numel
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  bcast_S32x64x1_S32x64x4096_0_1_2 : S32x64x1.BroadcastsInDim S32x64x4096 (![0, 1, 2] : Fin 3 → Fin S32x64x4096.rank)
  dot_S32x64x512_S512x512_S32x64x512_2_1_01_0_n_n_wf : DotDims.WF S32x64x512 S512x512 S32x64x512 [2] [1] [0, 1] [0] [] []
  dot_S32x4096x512_S512x512_S32x4096x512_2_1_01_0_n_n_wf : DotDims.WF S32x4096x512 S512x512 S32x4096x512 [2] [1] [0, 1] [0] [] []
  dot_S32x64x512_S32x4096x512_S32x64x4096_2_2_1_1_0_0_wf : DotDims.WF S32x64x512 S32x4096x512 S32x64x4096 [2] [2] [1] [1] [0] [0]
  dot_S32x64x4096_S32x4096x512_S32x64x512_2_1_1_2_0_0_wf : DotDims.WF S32x64x4096 S32x4096x512 S32x64x512 [2] [1] [1] [2] [0] [0]

variable [Facts₀]

def dot_S32x64x512_S512x512_S32x64x512_2_1_01_0_n_n : DotDims S32x64x512 S512x512 S32x64x512 where
  lhsContracting := [2]
  rhsContracting := [1]
  lhsNonContracting := [0, 1]
  rhsNonContracting := [0]
  lhsBatch := []
  rhsBatch := []
  wf := dot_S32x64x512_S512x512_S32x64x512_2_1_01_0_n_n_wf
def dot_S32x4096x512_S512x512_S32x4096x512_2_1_01_0_n_n : DotDims S32x4096x512 S512x512 S32x4096x512 where
  lhsContracting := [2]
  rhsContracting := [1]
  lhsNonContracting := [0, 1]
  rhsNonContracting := [0]
  lhsBatch := []
  rhsBatch := []
  wf := dot_S32x4096x512_S512x512_S32x4096x512_2_1_01_0_n_n_wf
def dot_S32x64x512_S32x4096x512_S32x64x4096_2_2_1_1_0_0 : DotDims S32x64x512 S32x4096x512 S32x64x4096 where
  lhsContracting := [2]
  rhsContracting := [2]
  lhsNonContracting := [1]
  rhsNonContracting := [1]
  lhsBatch := [0]
  rhsBatch := [0]
  wf := dot_S32x64x512_S32x4096x512_S32x64x4096_2_2_1_1_0_0_wf
def dot_S32x64x4096_S32x4096x512_S32x64x512_2_1_1_2_0_0 : DotDims S32x64x4096 S32x4096x512 S32x64x512 where
  lhsContracting := [2]
  rhsContracting := [1]
  lhsNonContracting := [1]
  rhsNonContracting := [2]
  lhsBatch := [0]
  rhsBatch := [0]
  wf := dot_S32x64x4096_S32x4096x512_S32x64x512_2_1_1_2_0_0_wf

class Facts : Prop extends Facts₀ where

variable [Facts]
-- ==== Proof.Pieces.lean ====
/-
  What each grid point leaves in the carried scratch buffers and in the output block, as values.

  The kernel visits, for each batch, two tiles of 2048 keys. At the first tile it projects the batch's queries into a
  scratch buffer and resets three more — the running row maximum to −∞, the running weight sum and the running weighted
  sum to 0 — and then, like at the second tile, projects the tile's keys and values, scores the queries against the keys,
  and updates the three running quantities. At the second tile it finally divides the weighted sum by the weight sum into
  the output block. The frame run found, per control case, the list of stores each buffer ends with; here each list is
  read back as ONE value: the last covering store's payload, with the loads it depends on resolved to the buffers'
  contents (an input block, what the previous point left, or an earlier store of the same point).
-/
import proofs.«134487_j39676907885250_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F] [Named F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a batch's first key tile the query scratch ends at the projected queries: the one covering store's payload, of the point's blocks of `x1`, the transposed query weight and the query bias. -/
theorem q_first (c : Dev nD) (i : grid0.Coords) (arg2 : Memref sig .tc .vmem S1x64x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1x64x512 .f32) (harg10 : arg10.IsWhole) (arg11 : Memref sig .tc .vmem S64x512 .bf16) (harg11 : arg11.IsWhole) (arg12 : Memref sig .tc .vmem S64x1 .f32) (harg12 : arg12.IsWhole) (arg13 : Memref sig .tc .vmem S64x1 .f32) (harg13 : arg13.IsWhole) (arg14 : Memref sig .tc .vmem S64x512 .f32) (harg14 : arg14.IsWhole) (hc0 : cond0_0 i) (hc1 : ¬cond0_1 i) (x0 : Vec F S1x64x512 .f32) (x1 : Vec F S1x2048x512 .f32) (x2 : Vec F S512x512 .bf16) (x3 : Vec F S512 .f32) (x4 : Vec F S512x512 .bf16) (x5 : Vec F S512 .f32) (x6 : Vec F S512x512 .bf16) (x7 : Vec F S512 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay5 x0 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_unit_zero (S := S64x512) hz2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread,
    View.ld_unit_zero (S := S1x64x512) hz3, View.ld_unit_zero (S := S1x2048x512) hz3, View.ld_unit_zero (S := S512x512) hz2, View.ld_unit_zero (S := S512) hz1,
    View.ld_unit_zero (S := S64x512) hz2, View.ld_unit_zero (S := S64x1) hz2,
    View.readCov_unit_zero (S := S64x512) _ hz2, View.readCov_unit_zero (S := S64x1) _ hz2]

/-- At the first key tile the running maximum ends at the maximum of its reset value and the tile's row maxima: the reset store is overwritten by the last one, whose loads read the freshly stored queries and the reset value. -/
theorem m_first (c : Dev nD) (i : grid0.Coords) (arg2 : Memref sig .tc .vmem S1x64x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1x64x512 .f32) (harg10 : arg10.IsWhole) (arg11 : Memref sig .tc .vmem S64x512 .bf16) (harg11 : arg11.IsWhole) (arg12 : Memref sig .tc .vmem S64x1 .f32) (harg12 : arg12.IsWhole) (arg13 : Memref sig .tc .vmem S64x1 .f32) (harg13 : arg13.IsWhole) (arg14 : Memref sig .tc .vmem S64x512 .f32) (harg14 : arg14.IsWhole) (hc0 : cond0_0 i) (hc1 : ¬cond0_1 i) (x0 : Vec F S1x64x512 .f32) (x1 : Vec F S1x2048x512 .f32) (x2 : Vec F S512x512 .bf16) (x3 : Vec F S512 .f32) (x4 : Vec F S512x512 .bf16) (x5 : Vec F S512 .f32) (x6 : Vec F S512x512 .bf16) (x7 : Vec F S512 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay3 (k0_pay12 x1 x4 x5 (k0_pay5 x0 x2 x3) k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S64x1) hz2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread,
    View.ld_unit_zero (S := S1x64x512) hz3, View.ld_unit_zero (S := S1x2048x512) hz3, View.ld_unit_zero (S := S512x512) hz2, View.ld_unit_zero (S := S512) hz1,
    View.ld_unit_zero (S := S64x512) hz2, View.ld_unit_zero (S := S64x1) hz2,
    View.readCov_unit_zero (S := S64x512) _ hz2, View.readCov_unit_zero (S := S64x1) _ hz2]

/-- At the first key tile the running weight sum ends at the rescaled reset value plus the tile's weight sums. -/
theorem l_first (c : Dev nD) (i : grid0.Coords) (arg2 : Memref sig .tc .vmem S1x64x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1x64x512 .f32) (harg10 : arg10.IsWhole) (arg11 : Memref sig .tc .vmem S64x512 .bf16) (harg11 : arg11.IsWhole) (arg12 : Memref sig .tc .vmem S64x1 .f32) (harg12 : arg12.IsWhole) (arg13 : Memref sig .tc .vmem S64x1 .f32) (harg13 : arg13.IsWhole) (arg14 : Memref sig .tc .vmem S64x512 .f32) (harg14 : arg14.IsWhole) (hc0 : cond0_0 i) (hc1 : ¬cond0_1 i) (x0 : Vec F S1x64x512 .f32) (x1 : Vec F S1x2048x512 .f32) (x2 : Vec F S512x512 .bf16) (x3 : Vec F S512 .f32) (x4 : Vec F S512x512 .bf16) (x5 : Vec F S512 .f32) (x6 : Vec F S512x512 .bf16) (x7 : Vec F S512 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay1 (k0_pay13 x1 x4 x5 (k0_pay5 x0 x2 x3) k0_pay6) (k0_pay14 x1 x4 x5 (k0_pay5 x0 x2 x3) k0_pay6) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S64x1) hz2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread,
    View.ld_unit_zero (S := S1x64x512) hz3, View.ld_unit_zero (S := S1x2048x512) hz3, View.ld_unit_zero (S := S512x512) hz2, View.ld_unit_zero (S := S512) hz1,
    View.ld_unit_zero (S := S64x512) hz2, View.ld_unit_zero (S := S64x1) hz2,
    View.readCov_unit_zero (S := S64x512) _ hz2, View.readCov_unit_zero (S := S64x1) _ hz2]

/-- At the first key tile the running weighted sum ends at the rescaled reset value plus the tile's weights times its values. -/
theorem acc_first (c : Dev nD) (i : grid0.Coords) (arg2 : Memref sig .tc .vmem S1x64x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1x64x512 .f32) (harg10 : arg10.IsWhole) (arg11 : Memref sig .tc .vmem S64x512 .bf16) (harg11 : arg11.IsWhole) (arg12 : Memref sig .tc .vmem S64x1 .f32) (harg12 : arg12.IsWhole) (arg13 : Memref sig .tc .vmem S64x1 .f32) (harg13 : arg13.IsWhole) (arg14 : Memref sig .tc .vmem S64x512 .f32) (harg14 : arg14.IsWhole) (hc0 : cond0_0 i) (hc1 : ¬cond0_1 i) (x0 : Vec F S1x64x512 .f32) (x1 : Vec F S1x2048x512 .f32) (x2 : Vec F S512x512 .bf16) (x3 : Vec F S512 .f32) (x4 : Vec F S512x512 .bf16) (x5 : Vec F S512 .f32) (x6 : Vec F S512x512 .bf16) (x7 : Vec F S512 .f32) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay2 (k0_pay10 x1 x6 x7) (k0_pay13 x1 x4 x5 (k0_pay5 x0 x2 x3) k0_pay6) (k0_pay14 x1 x4 x5 (k0_pay5 x0 x2 x3) k0_pay6) k0_pay8 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S64x512) hz2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread,
    View.ld_unit_zero (S := S1x64x512) hz3, View.ld_unit_zero (S := S1x2048x512) hz3, View.ld_unit_zero (S := S512x512) hz2, View.ld_unit_zero (S := S512) hz1,
    View.ld_unit_zero (S := S64x512) hz2, View.ld_unit_zero (S := S64x1) hz2,
    View.readCov_unit_zero (S := S64x512) _ hz2, View.readCov_unit_zero (S := S64x1) _ hz2]

/-- At the second key tile the running maximum ends at the maximum of what the first tile left and this tile's row maxima, the queries read from the scratch the first tile filled. -/
theorem m_second (c : Dev nD) (i : grid0.Coords) (arg2 : Memref sig .tc .vmem S1x64x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1x64x512 .f32) (harg10 : arg10.IsWhole) (arg11 : Memref sig .tc .vmem S64x512 .bf16) (harg11 : arg11.IsWhole) (arg12 : Memref sig .tc .vmem S64x1 .f32) (harg12 : arg12.IsWhole) (arg13 : Memref sig .tc .vmem S64x1 .f32) (harg13 : arg13.IsWhole) (arg14 : Memref sig .tc .vmem S64x512 .f32) (harg14 : arg14.IsWhole) (hc0 : ¬cond0_0 i) (hc1 : cond0_1 i) (x0 : Vec F S1x64x512 .f32) (x1 : Vec F S1x2048x512 .f32) (x2 : Vec F S512x512 .bf16) (x3 : Vec F S512 .f32) (x4 : Vec F S512x512 .bf16) (x5 : Vec F S512 .f32) (x6 : Vec F S512x512 .bf16) (x7 : Vec F S512 .f32) (xs0 : Vec F S64x512 .bf16) (xs1 : Vec F S64x1 .f32) (xs2 : Vec F S64x1 .f32) (xs3 : Vec F S64x512 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay3 (k0_pay12 x1 x4 x5 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_unit_zero (S := S64x1) hz2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread,
    View.ld_unit_zero (S := S1x64x512) hz3, View.ld_unit_zero (S := S1x2048x512) hz3, View.ld_unit_zero (S := S512x512) hz2, View.ld_unit_zero (S := S512) hz1,
    View.ld_unit_zero (S := S64x512) hz2, View.ld_unit_zero (S := S64x1) hz2,
    View.readCov_unit_zero (S := S64x512) _ hz2, View.readCov_unit_zero (S := S64x1) _ hz2]

/-- At the second key tile the running weight sum ends at what the first tile left, rescaled, plus this tile's weight sums. -/
theorem l_second (c : Dev nD) (i : grid0.Coords) (arg2 : Memref sig .tc .vmem S1x64x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1x64x512 .f32) (harg10 : arg10.IsWhole) (arg11 : Memref sig .tc .vmem S64x512 .bf16) (harg11 : arg11.IsWhole) (arg12 : Memref sig .tc .vmem S64x1 .f32) (harg12 : arg12.IsWhole) (arg13 : Memref sig .tc .vmem S64x1 .f32) (harg13 : arg13.IsWhole) (arg14 : Memref sig .tc .vmem S64x512 .f32) (harg14 : arg14.IsWhole) (hc0 : ¬cond0_0 i) (hc1 : cond0_1 i) (x0 : Vec F S1x64x512 .f32) (x1 : Vec F S1x2048x512 .f32) (x2 : Vec F S512x512 .bf16) (x3 : Vec F S512 .f32) (x4 : Vec F S512x512 .bf16) (x5 : Vec F S512 .f32) (x6 : Vec F S512x512 .bf16) (x7 : Vec F S512 .f32) (xs0 : Vec F S64x512 .bf16) (xs1 : Vec F S64x1 .f32) (xs2 : Vec F S64x1 .f32) (xs3 : Vec F S64x512 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay1 (k0_pay13 x1 x4 x5 xs0 xs1) (k0_pay14 x1 x4 x5 xs0 xs1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_unit_zero (S := S64x1) hz2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread,
    View.ld_unit_zero (S := S1x64x512) hz3, View.ld_unit_zero (S := S1x2048x512) hz3, View.ld_unit_zero (S := S512x512) hz2, View.ld_unit_zero (S := S512) hz1,
    View.ld_unit_zero (S := S64x512) hz2, View.ld_unit_zero (S := S64x1) hz2,
    View.readCov_unit_zero (S := S64x512) _ hz2, View.readCov_unit_zero (S := S64x1) _ hz2]

/-- At the second key tile the running weighted sum ends at what the first tile left, rescaled, plus this tile's weights times its values. -/
theorem acc_second (c : Dev nD) (i : grid0.Coords) (arg2 : Memref sig .tc .vmem S1x64x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1x64x512 .f32) (harg10 : arg10.IsWhole) (arg11 : Memref sig .tc .vmem S64x512 .bf16) (harg11 : arg11.IsWhole) (arg12 : Memref sig .tc .vmem S64x1 .f32) (harg12 : arg12.IsWhole) (arg13 : Memref sig .tc .vmem S64x1 .f32) (harg13 : arg13.IsWhole) (arg14 : Memref sig .tc .vmem S64x512 .f32) (harg14 : arg14.IsWhole) (hc0 : ¬cond0_0 i) (hc1 : cond0_1 i) (x0 : Vec F S1x64x512 .f32) (x1 : Vec F S1x2048x512 .f32) (x2 : Vec F S512x512 .bf16) (x3 : Vec F S512 .f32) (x4 : Vec F S512x512 .bf16) (x5 : Vec F S512 .f32) (x6 : Vec F S512x512 .bf16) (x7 : Vec F S512 .f32) (xs0 : Vec F S64x512 .bf16) (xs1 : Vec F S64x1 .f32) (xs2 : Vec F S64x1 .f32) (xs3 : Vec F S64x512 .f32) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay2 (k0_pay10 x1 x6 x7) (k0_pay13 x1 x4 x5 xs0 xs1) (k0_pay14 x1 x4 x5 xs0 xs1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_unit_zero (S := S64x512) hz2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread,
    View.ld_unit_zero (S := S1x64x512) hz3, View.ld_unit_zero (S := S1x2048x512) hz3, View.ld_unit_zero (S := S512x512) hz2, View.ld_unit_zero (S := S512) hz1,
    View.ld_unit_zero (S := S64x512) hz2, View.ld_unit_zero (S := S64x1) hz2,
    View.readCov_unit_zero (S := S64x512) _ hz2, View.readCov_unit_zero (S := S64x1) _ hz2]

/-- At the second key tile the output block is stored: the final weighted sum divided, row by row, by the final weight sum (both read back from the scratch just stored). -/
theorem out_second (c : Dev nD) (i : grid0.Coords) (arg2 : Memref sig .tc .vmem S1x64x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1x64x512 .f32) (harg10 : arg10.IsWhole) (arg11 : Memref sig .tc .vmem S64x512 .bf16) (harg11 : arg11.IsWhole) (arg12 : Memref sig .tc .vmem S64x1 .f32) (harg12 : arg12.IsWhole) (arg13 : Memref sig .tc .vmem S64x1 .f32) (harg13 : arg13.IsWhole) (arg14 : Memref sig .tc .vmem S64x512 .f32) (harg14 : arg14.IsWhole) (hc0 : ¬cond0_0 i) (hc1 : cond0_1 i) (x0 : Vec F S1x64x512 .f32) (x1 : Vec F S1x2048x512 .f32) (x2 : Vec F S512x512 .bf16) (x3 : Vec F S512 .f32) (x4 : Vec F S512x512 .bf16) (x5 : Vec F S512 .f32) (x6 : Vec F S512x512 .bf16) (x7 : Vec F S512 .f32) (xs0 : Vec F S64x512 .bf16) (xs1 : Vec F S64x1 .f32) (xs2 : Vec F S64x1 .f32) (xs3 : Vec F S64x512 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay4 (k0_pay2 (k0_pay10 x1 x6 x7) (k0_pay13 x1 x4 x5 xs0 xs1) (k0_pay14 x1 x4 x5 xs0 xs1) xs3) (k0_pay1 (k0_pay13 x1 x4 x5 xs0 xs1) (k0_pay14 x1 x4 x5 xs0 xs1) xs2) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_unit_zero (S := S1x64x512) hz3]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread,
    View.ld_unit_zero (S := S1x64x512) hz3, View.ld_unit_zero (S := S1x2048x512) hz3, View.ld_unit_zero (S := S512x512) hz2, View.ld_unit_zero (S := S512) hz1,
    View.ld_unit_zero (S := S64x512) hz2, View.ld_unit_zero (S := S64x1) hz2,
    View.readCov_unit_zero (S := S64x512) _ hz2, View.readCov_unit_zero (S := S64x1) _ hz2]

end Cert.KernelIdeal.Pieces

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibRowProduct.lean ====
/-
  A product of two matrices contracted along their rows, into a zero accumulator, read at one entry.

  For a matrix `l` of shape `[M, K]` and a matrix `r` of shape `[N, K]`, each contracted over its SECOND axis (the product
  `l · rᵀ`, the form a weight stored as [out, in] is applied in), the entry `(p, c)` on the extended reals is
  `∑ k, l[p, k] · r[c, k]`: the accumulator contributes the real `0`, the contraction index has a single axis of extent `K`
  and is traded for its one coordinate `k`, and the operand indices at the output index `(p, c)` and contraction
  coordinate `k` are `(p, k)` and `(c, k)`.

  The dimension numbers enter only through six facts, which a caller proves for its own record: the contraction shape has
  rank one (`hr`) and extent `K` (`hs`), and the four coordinates of the two operand indices (`hl0`, `hl1`, `hr0`, `hr1`).
  The operands' float formats are arbitrary.
-/
import Idealize.ShloMosaic.Lib.ValueIdx
import Idealize.ShloMosaic.PureOps.Ideal.Laws

noncomputable section

namespace Cert.RowProduct

open Idealize.ShloMosaic Idealize.ShloMosaic.ValueIdx

/-- Entry `(p, c)` of an `[M, K]` by `[N, K]` product over the second axes, into the zero accumulator, is
    `∑ k, l[p, k] · r[c, k]`, for any dimension numbers `D` whose contraction has the one axis of extent `K` and whose operand
    indices read `(p, k)` and `(c, k)`. -/
theorem matmul_zero_entry {M K N : ℕ} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j (1 : Fin 2)).val)
    (hr1 : ∀ (j : (⟨2, ![M, N]⟩ : Shape).Idx) (q : D.contr.Idx), (D.rhsIdx j q (1 : Fin 2)).val = (q ⟨0, by omega⟩).val)
    {φ₁ φ₂ : FTy} (l : FVec Ideal ⟨2, ![M, K]⟩ φ₁) (r : FVec Ideal ⟨2, ![N, K]⟩ φ₂) (p : Fin M) (c : Fin N) :
    FloatOps.matmul D none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 c k :=
    funext fun a => Fin.ext (by
      match a with
      | ⟨0, _⟩ => exact hr0 (ix2 p c) _
      | ⟨1, _⟩ => exact (hr1 (ix2 p c) _).trans hk)
  rw [el, er]

end Cert.RowProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Payloads.lean ====
/-
  The kernel body's arithmetic, read at one entry on the extended reals.

  Each lemma takes one pure value of the body (a projection, a tile of scores, a running maximum, a rescaling factor, a
  tile of weights, the updated weight sum and weighted sum, the final quotient) as a function of the blocks and of the
  values it is computed from, and says what it holds at an entry named by its coordinates: matrix products into a zero
  accumulator are plain sums of products over the contracted axis, a row maximum is the fold of `max` over the row, a row
  sum a sum over the row, a bias row or a per-row column broadcast reads the row's or the column's one entry, changes of
  float format are the identity, and the named scale constant is the rational the certificate's table gives it.
-/
import proofs.«134487_j39676907885250_2_alg».proof.Proof.Gen.KernelIdeal.Skeleton
import proofs.«134487_j39676907885250_2_alg».proof.Proof.LibPlainProduct
import proofs.«134487_j39676907885250_2_alg».proof.Proof.LibRowProduct
import proofs.«134487_j39676907885250_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Payloads

open Idealize.ShloMosaic Idealize.ShloMosaic.ValueIdx
open Cert.KernelIdeal Cert.KernelIdeal.Gen

/-! ## The dimension records of the four products -/

section Dims

/-- `[64,512] × [512,512]`, contracted over the left's columns and the right's rows. -/
local notation "Dq" => dot_S64x512_S512x512_S64x512_1_0_0_1_n_n
local notation "Dkv" => dot_S2048x512_S512x512_S2048x512_1_0_0_1_n_n
local notation "Ds" => dot_S64x512_S2048x512_S64x2048_1_1_0_0_n_n
local notation "Dpv" => dot_S64x2048_S2048x512_S64x512_1_0_0_1_n_n

theorem q_l0 (j : S64x512.Idx) (q : (Dq).contr.Idx) : ((Dq).lhsIdx j q (0 : Fin 2)).val = (j (0 : Fin 2)).val := by
  unfold DotDims.lhsIdx
  rw [dif_neg (show ¬(0 : Fin S64x512.rank) ∈ (Dq).lhsBatch by decide), dif_pos (show (0 : Fin S64x512.rank) ∈ (Dq).lhsNonContracting by decide)]
  rfl
theorem q_l1 (j : S64x512.Idx) (q : (Dq).contr.Idx) : ((Dq).lhsIdx j q (1 : Fin 2)).val = (q ⟨0, by decide⟩).val :=
  (Dq).lhsIdx_val_of_single rfl j q
theorem q_r0 (j : S64x512.Idx) (q : (Dq).contr.Idx) : ((Dq).rhsIdx j q (0 : Fin 2)).val = (q ⟨0, by decide⟩).val :=
  (Dq).rhsIdx_val_of_single rfl j q
theorem q_r1 (j : S64x512.Idx) (q : (Dq).contr.Idx) : ((Dq).rhsIdx j q (1 : Fin 2)).val = (j (1 : Fin 2)).val := by
  unfold DotDims.rhsIdx
  rw [dif_neg (show ¬(1 : Fin S512x512.rank) ∈ (Dq).rhsBatch by decide), dif_pos (show (1 : Fin S512x512.rank) ∈ (Dq).rhsNonContracting by decide)]
  rfl

theorem kv_l0 (j : S2048x512.Idx) (q : (Dkv).contr.Idx) : ((Dkv).lhsIdx j q (0 : Fin 2)).val = (j (0 : Fin 2)).val := by
  unfold DotDims.lhsIdx
  rw [dif_neg (show ¬(0 : Fin S2048x512.rank) ∈ (Dkv).lhsBatch by decide), dif_pos (show (0 : Fin S2048x512.rank) ∈ (Dkv).lhsNonContracting by decide)]
  rfl
theorem kv_l1 (j : S2048x512.Idx) (q : (Dkv).contr.Idx) : ((Dkv).lhsIdx j q (1 : Fin 2)).val = (q ⟨0, by decide⟩).val :=
  (Dkv).lhsIdx_val_of_single rfl j q
theorem kv_r0 (j : S2048x512.Idx) (q : (Dkv).contr.Idx) : ((Dkv).rhsIdx j q (0 : Fin 2)).val = (q ⟨0, by decide⟩).val :=
  (Dkv).rhsIdx_val_of_single rfl j q
theorem kv_r1 (j : S2048x512.Idx) (q : (Dkv).contr.Idx) : ((Dkv).rhsIdx j q (1 : Fin 2)).val = (j (1 : Fin 2)).val := by
  unfold DotDims.rhsIdx
  rw [dif_neg (show ¬(1 : Fin S512x512.rank) ∈ (Dkv).rhsBatch by decide), dif_pos (show (1 : Fin S512x512.rank) ∈ (Dkv).rhsNonContracting by decide)]
  rfl

theorem s_l0 (j : S64x2048.Idx) (q : (Ds).contr.Idx) : ((Ds).lhsIdx j q (0 : Fin 2)).val = (j (0 : Fin 2)).val := by
  unfold DotDims.lhsIdx
  rw [dif_neg (show ¬(0 : Fin S64x512.rank) ∈ (Ds).lhsBatch by decide), dif_pos (show (0 : Fin S64x512.rank) ∈ (Ds).lhsNonContracting by decide)]
  rfl
theorem s_l1 (j : S64x2048.Idx) (q : (Ds).contr.Idx) : ((Ds).lhsIdx j q (1 : Fin 2)).val = (q ⟨0, by decide⟩).val :=
  (Ds).lhsIdx_val_of_single rfl j q
theorem s_r0 (j : S64x2048.Idx) (q : (Ds).contr.Idx) : ((Ds).rhsIdx j q (0 : Fin 2)).val = (j (1 : Fin 2)).val := by
  unfold DotDims.rhsIdx
  rw [dif_neg (show ¬(0 : Fin S2048x512.rank) ∈ (Ds).rhsBatch by decide), dif_pos (show (0 : Fin S2048x512.rank) ∈ (Ds).rhsNonContracting by decide)]
  rfl
theorem s_r1 (j : S64x2048.Idx) (q : (Ds).contr.Idx) : ((Ds).rhsIdx j q (1 : Fin 2)).val = (q ⟨0, by decide⟩).val :=
  (Ds).rhsIdx_val_of_single rfl j q

theorem pv_l0 (j : S64x512.Idx) (q : (Dpv).contr.Idx) : ((Dpv).lhsIdx j q (0 : Fin 2)).val = (j (0 : Fin 2)).val := by
  unfold DotDims.lhsIdx
  rw [dif_neg (show ¬(0 : Fin S64x2048.rank) ∈ (Dpv).lhsBatch by decide), dif_pos (show (0 : Fin S64x2048.rank) ∈ (Dpv).lhsNonContracting by decide)]
  rfl
theorem pv_l1 (j : S64x512.Idx) (q : (Dpv).contr.Idx) : ((Dpv).lhsIdx j q (1 : Fin 2)).val = (q ⟨0, by decide⟩).val :=
  (Dpv).lhsIdx_val_of_single rfl j q
theorem pv_r0 (j : S64x512.Idx) (q : (Dpv).contr.Idx) : ((Dpv).rhsIdx j q (0 : Fin 2)).val = (q ⟨0, by decide⟩).val :=
  (Dpv).rhsIdx_val_of_single rfl j q
theorem pv_r1 (j : S64x512.Idx) (q : (Dpv).contr.Idx) : ((Dpv).rhsIdx j q (1 : Fin 2)).val = (j (1 : Fin 2)).val := by
  unfold DotDims.rhsIdx
  rw [dif_neg (show ¬(1 : Fin S2048x512.rank) ∈ (Dpv).rhsBatch by decide), dif_pos (show (1 : Fin S2048x512.rank) ∈ (Dpv).rhsNonContracting by decide)]
  rfl

end Dims

/-- The scale the scores are multiplied by: the certificate's table reads the kernel's constant as this rational. -/
def scale : EReal := ((268435456 / 11863283 : ℝ) : EReal)

theorem named_scale : Named.named (F := Ideal) κ "recip_inv_scale" (φ := .f32) 0x41B504F3#32 = scale :=
  IdealRules.named_const.ideal_named_scalar _ _ _ _ rfl

/-- A row of a matrix with the reduced column put back: the row index and that column. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The plain product's entry, stated with the product as the body spells it. -/
theorem plain_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    matmul D none l r (constant (F := Ideal) ⟨2, ![M, N]⟩ .f32 0x00000000#32) (ix2 p c)
      = ∑ k : Fin K, l (ix2 p k) * r (ix2 k c) :=
  Cert.PlainProduct.matmul_zero_entry D hr hs hl0 hl1 hr0 hr1 l r p c

/-- The product against a transposed right operand, likewise. -/
theorem row_entry {M K N : ℕ} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j (1 : Fin 2)).val)
    (hr1 : ∀ (j : (⟨2, ![M, N]⟩ : Shape).Idx) (q : D.contr.Idx), (D.rhsIdx j q (1 : Fin 2)).val = (q ⟨0, by omega⟩).val)
    {φ₁ φ₂ : FTy} (l : FVec Ideal ⟨2, ![M, K]⟩ φ₁) (r : FVec Ideal ⟨2, ![N, K]⟩ φ₂) (p : Fin M) (c : Fin N) :
    matmul D none l r (constant (F := Ideal) ⟨2, ![M, N]⟩ .f32 0x00000000#32) (ix2 p c)
      = ∑ k : Fin K, l (ix2 p k) * r (ix2 c k) :=
  Cert.RowProduct.matmul_zero_entry D hr hs hl0 hl1 hr0 hr1 l r p c

/-! ## The projections -/

/-- A projected query: the block's row against the transposed weight's column, plus the bias entry. -/
theorem query_apply (X : Vec Ideal S1x64x512 .f32) (W : Vec Ideal S512x512 .bf16) (B : Vec Ideal S512 .f32) (p : Fin 64) (e : Fin 512) :
    k0_pay5 (F := Ideal) X W B (ix2 p e) = (∑ d : Fin 512, X (ix3 (0 : Fin 1) p d) * W (ix2 d e)) + B (ix1 e) := by
  unfold k0_pay5
  simp only [shapeCast_self]
  rw [truncf_apply, addf_apply, plain_entry dot_S64x512_S512x512_S64x512_1_0_0_1_n_n rfl rfl q_l0 q_l1 q_r0 q_r1,
    broadcastTo_1b_ab_apply, shapeCast_a_1a_apply]
  simp only [truncf_apply, shapeCast_1ab_ab_apply]

/-- The key tile's block, its unit axis dropped. -/
theorem tile_apply (X : Vec Ideal S1x2048x512 .f32) (r : Fin 2048) (d : Fin 512) :
    k0_pay9 (F := Ideal) X (ix2 r d) = X (ix3 (0 : Fin 1) r d) := by
  unfold k0_pay9
  rw [truncf_apply, shapeCast_1ab_ab_apply]

/-- A projected value of the tile. -/
theorem value_apply (X : Vec Ideal S1x2048x512 .f32) (W : Vec Ideal S512x512 .bf16) (B : Vec Ideal S512 .f32) (r : Fin 2048) (e : Fin 512) :
    k0_pay10 (F := Ideal) X W B (ix2 r e) = (∑ d : Fin 512, X (ix3 (0 : Fin 1) r d) * W (ix2 d e)) + B (ix1 e) := by
  unfold k0_pay10
  simp only [shapeCast_self]
  rw [truncf_apply, addf_apply, plain_entry dot_S2048x512_S512x512_S2048x512_1_0_0_1_n_n rfl rfl kv_l0 kv_l1 kv_r0 kv_r1,
    broadcastTo_1b_ab_apply, shapeCast_a_1a_apply]
  simp only [tile_apply]

/-- A scaled score: the query row against the tile's projected key row, times the scale. -/
theorem score_apply (X : Vec Ideal S1x2048x512 .f32) (W : Vec Ideal S512x512 .bf16) (B : Vec Ideal S512 .f32)
    (Q : Vec Ideal S64x512 .bf16) (p : Fin 64) (r : Fin 2048) :
    k0_pay11 (F := Ideal) X W B Q (ix2 p r)
      = (∑ e : Fin 512, Q (ix2 p e) * ((∑ d : Fin 512, X (ix3 (0 : Fin 1) r d) * W (ix2 d e)) + B (ix1 e))) * scale := by
  unfold k0_pay11
  simp only [shapeCast_self]
  rw [mulf_apply, broadcast_apply, named_scale, row_entry dot_S64x512_S2048x512_S64x2048_1_1_0_0_n_n rfl rfl s_l0 s_l1 s_r0 s_r1]
  congr 1
  refine Finset.sum_congr rfl fun e _ => ?_
  rw [truncf_apply, addf_apply, plain_entry dot_S2048x512_S512x512_S2048x512_1_0_0_1_n_n rfl rfl kv_l0 kv_l1 kv_r0 kv_r1,
    broadcastTo_1b_ab_apply, shapeCast_a_1a_apply]
  simp only [tile_apply]

/-! ## The reset values -/

theorem neg_inf_word : Ideal.ofBits .f32 0xFF800000#32 = ⊥ := by simp [Ideal.ofBits, Ideal.ieee]
theorem zero_word : Ideal.ofBits .f32 0x00000000#32 = 0 := by simp [Ideal.ofBits, Ideal.ieee]

/-- The running maximum is reset to −∞. -/
theorem reset_max_apply (j : S64x1.Idx) : k0_pay6 (F := Ideal) j = ⊥ := by
  unfold k0_pay6
  simp only [shapeCast_self]
  exact neg_inf_word

/-- The running weight sum is reset to 0. -/
theorem reset_sum_apply (j : S64x1.Idx) : k0_pay7 (F := Ideal) j = 0 := by
  unfold k0_pay7
  simp only [shapeCast_self]
  exact zero_word

/-- The running weighted sum is reset to 0. -/
theorem reset_acc_apply (j : S64x512.Idx) : k0_pay8 (F := Ideal) j = 0 := by
  unfold k0_pay8
  simp only [shapeCast_self]
  exact zero_word

/-! ## The running quantities -/

/-- The new running maximum of row `p`: the old one against the maximum of the tile's scores of that row, folded from −∞. -/
theorem running_max_apply (X : Vec Ideal S1x2048x512 .f32) (W : Vec Ideal S512x512 .bf16) (B : Vec Ideal S512 .f32)
    (Q : Vec Ideal S64x512 .bf16) (Mp : Vec Ideal S64x1 .f32) (p : Fin 64) (u : Fin 1) :
    k0_pay12 (F := Ideal) X W B Q Mp (ix2 p u)
      = max (Mp (ix2 p u)) ((Finset.univ : Finset (Fin 2048)).fold max ⊥ fun r => k0_pay11 (F := Ideal) X W B Q (ix2 p r)) := by
  unfold k0_pay12
  rw [maximumf_apply]
  refine congrArg (max (Mp (ix2 p u))) ?_
  refine (Cert.ColumnLayout.shapeCast_a_a1_apply _ _ p u).trans ?_
  refine (Ideal.multiReduction_maximumf_single _ _ reduces_S64x2048_S64 _ _ (ix1 p)).trans ?_
  rw [Ideal.ofBits_def, neg_inf_word]
  refine congrArg (fun f => Finset.fold max ⊥ f Finset.univ) ?_
  funext k
  exact congrArg (k0_pay11 (F := Ideal) X W B Q) (lift_row reduces_S64x2048_S64 p k)

/-- The factor that rescales what the earlier tiles left: `exp (old maximum − new maximum)`. -/
theorem rescale_apply (X : Vec Ideal S1x2048x512 .f32) (W : Vec Ideal S512x512 .bf16) (B : Vec Ideal S512 .f32)
    (Q : Vec Ideal S64x512 .bf16) (Mp : Vec Ideal S64x1 .f32) (j : S64x1.Idx) :
    k0_pay13 (F := Ideal) X W B Q Mp j = Ideal.exp (Mp j - k0_pay12 (F := Ideal) X W B Q Mp j) := by
  unfold k0_pay13
  rfl

/-- A weight of the tile: `exp (score − the row's new maximum)`. -/
theorem weight_apply (X : Vec Ideal S1x2048x512 .f32) (W : Vec Ideal S512x512 .bf16) (B : Vec Ideal S512 .f32)
    (Q : Vec Ideal S64x512 .bf16) (Mp : Vec Ideal S64x1 .f32) (p : Fin 64) (r : Fin 2048) :
    k0_pay14 (F := Ideal) X W B Q Mp (ix2 p r)
      = Ideal.exp (k0_pay11 (F := Ideal) X W B Q (ix2 p r) - k0_pay12 (F := Ideal) X W B Q Mp (ix2 p (0 : Fin 1))) := by
  unfold k0_pay14
  exact congrArg (fun z => Ideal.exp (k0_pay11 (F := Ideal) X W B Q (ix2 p r) - z))
    (Cert.ColumnLayout.broadcastTo_a1_ab_apply _ _ p r)

/-- The new running weight sum of row `p`: the old one rescaled, plus the tile's weights of that row. -/
theorem running_sum_apply (A : FVec Ideal S64x1 .f32) (P : FVec Ideal S64x2048 .f32) (L : Vec Ideal S64x1 .f32) (p : Fin 64) (u : Fin 1) :
    k0_pay1 (F := Ideal) A P L (ix2 p u) = A (ix2 p u) * L (ix2 p u) + ∑ r : Fin 2048, P (ix2 p r) := by
  unfold k0_pay1
  simp only [shapeCast_self]
  rw [addf_apply, mulf_apply]
  refine congrArg (A (ix2 p u) * L (ix2 p u) + ·) ?_
  refine (Cert.ColumnLayout.shapeCast_a_a1_apply _ _ p u).trans ?_
  refine (Ideal.multiReduction_add_single _ _ reduces_S64x2048_S64 _ _ (ix1 p)).trans ?_
  exact Finset.sum_congr rfl fun k _ => congrArg P (lift_row _ p k)

/-- The new running weighted sum at `(p, e)`: the old one rescaled by the row's factor, plus the tile's weights of the row
    against the tile's values' column `e`. -/
theorem running_acc_apply (V : FVec Ideal S2048x512 .bf16) (A : FVec Ideal S64x1 .f32) (P : FVec Ideal S64x2048 .f32)
    (Acc : Vec Ideal S64x512 .f32) (p : Fin 64) (e : Fin 512) :
    k0_pay2 (F := Ideal) V A P Acc (ix2 p e)
      = A (ix2 p (0 : Fin 1)) * Acc (ix2 p e) + ∑ r : Fin 2048, P (ix2 p r) * V (ix2 r e) := by
  unfold k0_pay2
  simp only [shapeCast_self]
  rw [addf_apply, mulf_apply]
  refine congrArg₂ (· + ·) (congrArg (· * Acc (ix2 p e)) (Cert.ColumnLayout.broadcastTo_a1_ab_apply _ _ p e)) ?_
  exact plain_entry dot_S64x2048_S2048x512_S64x512_1_0_0_1_n_n rfl rfl pv_l0 pv_l1 pv_r0 pv_r1 _ _ p e

/-- The running maximum is stored as it is. -/
theorem store_max_eq (M : FVec Ideal S64x1 .f32) : k0_pay3 (F := Ideal) M = M := by
  unfold k0_pay3
  exact shapeCast_self _ _

/-- The output block at `(0, p, e)`: the weighted sum over the row's weight sum. -/
theorem quotient_apply (Acc : Vec Ideal S64x512 .f32) (L : Vec Ideal S64x1 .f32) (u : Fin 1) (p : Fin 64) (e : Fin 512) :
    k0_pay4 (F := Ideal) Acc L (ix3 u p e) = Ideal.div (Acc (ix2 p e)) (L (ix2 p (0 : Fin 1))) := by
  unfold k0_pay4
  refine (shapeCast_ab_1ab_apply _ _ u p e).trans ?_
  rw [divf_apply]
  exact congrArg (Ideal.div (Acc (ix2 p e))) (Cert.ColumnLayout.broadcastTo_a1_ab_apply _ _ p e)

end Cert.KernelIdeal.Payloads

end
-- ==== Proof.OnlineSoftmax.lean ====
/-
  A softmax-weighted sum, accumulated over two tiles of keys with a running maximum, is the plain softmax-weighted sum.

  Fix one query row. Its scores over the keys are real numbers `s k`, and each key carries a real value `v k`. The plain
  form subtracts one real `M` from every score, exponentiates, divides each weight by the sum `L` of all the weights, and
  sums `(e k / L) · v k` over the keys. The tiled form visits the keys in two tiles: the first tile exponentiates against its
  own reference point `m₀` and keeps the weighted sum `A₀` and the weight sum `B₀`; the second tile exponentiates against
  `m₁`, rescales what the first tile kept by `exp (m₀ - m₁)`, adds its own sums, and finally divides the weighted sum by
  the weight sum. Since `exp (s - M) = exp (m₁ - M) · exp (m₀ - m₁) · exp (s - m₀)`, every weight of the plain form is the
  tiled form's weight times the one positive factor `exp (m₁ - M)`, which cancels in the quotient. The reference points
  enter only through being real numbers: which real each of them is does not matter.

  Everything is stated on the extended reals, where the programs compute, for entries that are real numbers; the first
  tile starts from the accumulators `0` rescaled by `exp (⊥ - m₀) = 0`.
-/
import Idealize.ShloMosaic.PureOps.Ideal.Laws

noncomputable section

namespace Cert.OnlineSoftmax

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many real numbers, folded from `⊥`, is `⊥` over no numbers and a real number otherwise. -/
theorem fold_max_bot_or_real {ι : Type*} (s : Finset ι) (f : ι → EReal) (h : ∀ i, IsReal (f i)) :
    (s = ∅ ∧ s.fold Max.max ⊥ f = ⊥) ∨ IsReal (s.fold Max.max ⊥ f) := by
  classical
  induction s using Finset.induction_on with
  | empty => exact .inl ⟨rfl, rfl⟩
  | insert a s ha ih =>
    refine .inr ?_
    rw [Finset.fold_insert ha]
    rcases ih with ⟨-, e⟩ | hr
    · rw [e, max_eq_left bot_le]; exact h a
    · exact (h a).max hr

/-- Over at least one number it is a real number. -/
theorem isReal_fold_max {ι : Type*} [Fintype ι] [Nonempty ι] (f : ι → EReal) (h : ∀ i, IsReal (f i)) :
    IsReal ((Finset.univ : Finset ι).fold Max.max ⊥ f) := by
  rcases fold_max_bot_or_real Finset.univ f h with ⟨e, -⟩ | hr
  · exact absurd e Finset.univ_nonempty.ne_empty
  · exact hr

/-- The identity on the reals: the tiled quotient is the plain normalized sum, the common factor `exp (m₁ - M)` cancelling. -/
theorem real_two_tiles {ι₀ ι₁ : Type*} [Fintype ι₀] [Fintype ι₁] (s₀ v₀ : ι₀ → ℝ) (s₁ v₁ : ι₁ → ℝ) (m₀ m₁ M : ℝ) :
    (Real.exp (m₀ - m₁) * (∑ r, Real.exp (s₀ r - m₀) * v₀ r) + ∑ r, Real.exp (s₁ r - m₁) * v₁ r)
        * (1 / (Real.exp (m₀ - m₁) * (∑ r, Real.exp (s₀ r - m₀)) + ∑ r, Real.exp (s₁ r - m₁)))
      = (∑ r, Real.exp (s₀ r - M) * (1 / (∑ r, Real.exp (s₀ r - M) + ∑ r, Real.exp (s₁ r - M))) * v₀ r)
        + ∑ r, Real.exp (s₁ r - M) * (1 / (∑ r, Real.exp (s₀ r - M) + ∑ r, Real.exp (s₁ r - M))) * v₁ r := by
  have e0 : ∀ r, Real.exp (s₀ r - M) = Real.exp (m₁ - M) * (Real.exp (m₀ - m₁) * Real.exp (s₀ r - m₀)) := fun r => by
    rw [← Real.exp_add, ← Real.exp_add]; congr 1; ring
  have e1 : ∀ r, Real.exp (s₁ r - M) = Real.exp (m₁ - M) * Real.exp (s₁ r - m₁) := fun r => by
    rw [← Real.exp_add]; congr 1; ring
  have ht : Real.exp (m₁ - M) ≠ 0 := Real.exp_ne_zero _
  simp only [e0, e1]
  generalize Real.exp (m₁ - M) = t at ht
  generalize Real.exp (m₀ - m₁) = u
  have hD : (∑ r, t * (u * Real.exp (s₀ r - m₀))) + ∑ r, t * Real.exp (s₁ r - m₁)
      = t * (u * (∑ r, Real.exp (s₀ r - m₀)) + ∑ r, Real.exp (s₁ r - m₁)) := by
    rw [mul_add, Finset.mul_sum, Finset.mul_sum, Finset.mul_sum]
  rw [hD]
  set D := u * (∑ r, Real.exp (s₀ r - m₀)) + ∑ r, Real.exp (s₁ r - m₁) with hDdef
  have h0 : (∑ r, t * (u * Real.exp (s₀ r - m₀)) * (1 / (t * D)) * v₀ r)
      = (u * ∑ r, Real.exp (s₀ r - m₀) * v₀ r) * (1 / D) := by
    rw [Finset.mul_sum, Finset.sum_mul]
    refine Finset.sum_congr rfl fun r _ => ?_
    rw [one_div, one_div, mul_inv]; field_simp
  have h1 : (∑ r, t * Real.exp (s₁ r - m₁) * (1 / (t * D)) * v₁ r)
      = (∑ r, Real.exp (s₁ r - m₁) * v₁ r) * (1 / D) := by
    rw [Finset.sum_mul]
    refine Finset.sum_congr rfl fun r _ => ?_
    rw [one_div, one_div, mul_inv]; field_simp
  rw [h0, h1, add_mul]

/-- THE TWO-TILE IDENTITY on the extended reals, for real entries. Left: what the tiled form computes — the first tile's sums
    against `m₀` from accumulators `0` rescaled by `exp (⊥ - m₀)`, rescaled by `exp (m₀ - m₁)`, plus the second tile's against
    `m₁`, the weighted sum divided by the weight sum. Right: the plain form against `M` over both tiles — each weight divided
    by `0 +` the sum of all the weights, times its value, summed. -/
theorem two_tiles {ι₀ ι₁ : Type*} [Fintype ι₀] [Fintype ι₁] [Nonempty ι₁]
    (s₀ v₀ : ι₀ → EReal) (s₁ v₁ : ι₁ → EReal) (m₀ m₁ M : EReal)
    (hs₀ : ∀ r, IsReal (s₀ r)) (hv₀ : ∀ r, IsReal (v₀ r)) (hs₁ : ∀ r, IsReal (s₁ r)) (hv₁ : ∀ r, IsReal (v₁ r))
    (hm₀ : IsReal m₀) (hm₁ : IsReal m₁) (hM : IsReal M) :
    Ideal.div
        (Ideal.exp (m₀ - m₁) * (Ideal.exp (⊥ - m₀) * 0 + ∑ r, Ideal.exp (s₀ r - m₀) * v₀ r) + ∑ r, Ideal.exp (s₁ r - m₁) * v₁ r)
        (Ideal.exp (m₀ - m₁) * (Ideal.exp (⊥ - m₀) * 0 + ∑ r, Ideal.exp (s₀ r - m₀)) + ∑ r, Ideal.exp (s₁ r - m₁))
      = (∑ r, Ideal.div (Ideal.exp (s₀ r - M)) (0 + ((∑ r, Ideal.exp (s₀ r - M)) + ∑ r, Ideal.exp (s₁ r - M))) * v₀ r)
        + ∑ r, Ideal.div (Ideal.exp (s₁ r - M)) (0 + ((∑ r, Ideal.exp (s₀ r - M)) + ∑ r, Ideal.exp (s₁ r - M))) * v₁ r := by
  choose a₀ ha₀ using hs₀
  choose b₀ hb₀ using hv₀
  choose a₁ ha₁ using hs₁
  choose b₁ hb₁ using hv₁
  obtain ⟨n₀, rfl⟩ := hm₀
  obtain ⟨n₁, rfl⟩ := hm₁
  obtain ⟨N, rfl⟩ := hM
  obtain rfl : s₀ = fun r => (a₀ r : EReal) := funext ha₀
  obtain rfl : v₀ = fun r => (b₀ r : EReal) := funext hb₀
  obtain rfl : s₁ = fun r => (a₁ r : EReal) := funext ha₁
  obtain rfl : v₁ = fun r => (b₁ r : EReal) := funext hb₁
  -- the two denominators are positive reals
  have hpos₁ : 0 < ∑ r, Real.exp (a₁ r - n₁) := Finset.sum_pos (fun _ _ => Real.exp_pos _) Finset.univ_nonempty
  have hD' : Real.exp (n₀ - n₁) * (∑ r, Real.exp (a₀ r - n₀)) + ∑ r, Real.exp (a₁ r - n₁) ≠ 0 :=
    (add_pos_of_nonneg_of_pos (mul_nonneg (Real.exp_pos _).le (Finset.sum_nonneg fun _ _ => (Real.exp_pos _).le)) hpos₁).ne'
  have hD : (∑ r, Real.exp (a₀ r - N)) + ∑ r, Real.exp (a₁ r - N) ≠ 0 :=
    (add_pos_of_nonneg_of_pos (Finset.sum_nonneg fun _ _ => (Real.exp_pos _).le)
      (Finset.sum_pos (fun _ _ => Real.exp_pos _) Finset.univ_nonempty)).ne'
  -- each side is the coercion of its real counterpart
  have eL : Ideal.div
        (Ideal.exp ((n₀ : EReal) - n₁) * (Ideal.exp (⊥ - (n₀ : EReal)) * 0 + ∑ r, Ideal.exp ((a₀ r : EReal) - n₀) * (b₀ r : EReal))
          + ∑ r, Ideal.exp ((a₁ r : EReal) - n₁) * (b₁ r : EReal))
        (Ideal.exp ((n₀ : EReal) - n₁) * (Ideal.exp (⊥ - (n₀ : EReal)) * 0 + ∑ r, Ideal.exp ((a₀ r : EReal) - n₀))
          + ∑ r, Ideal.exp ((a₁ r : EReal) - n₁))
      = (((Real.exp (n₀ - n₁) * (∑ r, Real.exp (a₀ r - n₀) * b₀ r) + ∑ r, Real.exp (a₁ r - n₁) * b₁ r)
          * (1 / (Real.exp (n₀ - n₁) * (∑ r, Real.exp (a₀ r - n₀)) + ∑ r, Real.exp (a₁ r - n₁))) : ℝ) : EReal) := by
    have hden : Ideal.exp ((n₀ : EReal) - n₁) * (Ideal.exp (⊥ - (n₀ : EReal)) * 0 + ∑ r, Ideal.exp ((a₀ r : EReal) - n₀))
          + ∑ r, Ideal.exp ((a₁ r : EReal) - n₁)
        = ((Real.exp (n₀ - n₁) * (∑ r, Real.exp (a₀ r - n₀)) + ∑ r, Real.exp (a₁ r - n₁) : ℝ) : EReal) := by
      rw [mul_zero, zero_add]
      simp only [EReal.coe_add, EReal.coe_mul, EReal.coe_sub, coe_sum, ← Ideal.exp_coe]
    rw [hden, Ideal.div_coe hD', mul_zero, zero_add]
    simp only [EReal.coe_add, EReal.coe_mul, EReal.coe_sub, coe_sum, ← Ideal.exp_coe]
  have eR : (∑ r, Ideal.div (Ideal.exp ((a₀ r : EReal) - N)) (0 + ((∑ r, Ideal.exp ((a₀ r : EReal) - N)) + ∑ r, Ideal.exp ((a₁ r : EReal) - N))) * (b₀ r : EReal))
        + ∑ r, Ideal.div (Ideal.exp ((a₁ r : EReal) - N)) (0 + ((∑ r, Ideal.exp ((a₀ r : EReal) - N)) + ∑ r, Ideal.exp ((a₁ r : EReal) - N))) * (b₁ r : EReal)
      = (((∑ r, Real.exp (a₀ r - N) * (1 / ((∑ r, Real.exp (a₀ r - N)) + ∑ r, Real.exp (a₁ r - N))) * b₀ r)
          + ∑ r, Real.exp (a₁ r - N) * (1 / ((∑ r, Real.exp (a₀ r - N)) + ∑ r, Real.exp (a₁ r - N))) * b₁ r : ℝ) : EReal) := by
    have hden : (0 : EReal) + ((∑ r, Ideal.exp ((a₀ r : EReal) - N)) + ∑ r, Ideal.exp ((a₁ r : EReal) - N))
        = (((∑ r, Real.exp (a₀ r - N)) + ∑ r, Real.exp (a₁ r - N) : ℝ) : EReal) := by
      rw [zero_add]
      simp only [EReal.coe_add, EReal.coe_sub, coe_sum, ← Ideal.exp_coe]
    rw [hden]
    simp only [Ideal.div_coe hD]
    simp only [EReal.coe_add, EReal.coe_mul, EReal.coe_sub, coe_sum, ← Ideal.exp_coe]
  rw [eL, eR, real_two_tiles a₀ b₀ a₁ b₁ n₀ n₁ N]

end Cert.OnlineSoftmax

end
-- ==== Proof.Attention.lean ====
/-
  Scaled dot-product attention with linear projections, entry by entry on the extended reals, in two arrangements.

  `lin x w bias` is a linear layer applied to each row of each batch: `y[b, n, e] = Σ_d x[b, n, d] · w[e, d] + bias[e]`
  (the weight stored `[out, in]`). Queries are `lin x1 wq bq`, keys `lin x2 wk bk`, values `lin x2 wv bv`. The score of
  query row `p` against key `k` is their inner product times `scale`. `out` is the plain arrangement: subtract the row's
  maximum score, exponentiate, divide every weight by the sum of the row's weights, and take the weighted sum of the
  values over all 4096 keys. `tiledOut` is the arrangement over two tiles of 2048 keys with a running maximum, weight sum
  and weighted sum, the quotient taken once at the end. For real inputs the two agree (`tiled_eq_out`): the row maxima
  are then real numbers, and the two-tile identity of `Cert.OnlineSoftmax` applies to the row.
-/
import Idealize.ShloMosaic.Lib.ValueIdx
import proofs.«134487_j39676907885250_2_alg».proof.Proof.OnlineSoftmax

noncomputable section

namespace Cert.Attention

open Idealize.ShloMosaic Idealize.ShloMosaic.ValueIdx Cert.OnlineSoftmax

/-- A linear layer at one entry: `Σ_d x[b, n, d] · w[e, d] + bias[e]`. -/
def lin {N : ℕ} (x : (⟨3, ![32, N, 512]⟩ : Shape).Idx → EReal) (w : (⟨2, ![512, 512]⟩ : Shape).Idx → EReal)
    (bias : (⟨1, ![512]⟩ : Shape).Idx → EReal) (b : Fin 32) (n : Fin N) (e : Fin 512) : EReal :=
  (∑ d : Fin 512, x (ix3 b n d) * w (ix2 e d)) + bias (ix1 e)

/-- The factor the scores carry: the reciprocal of the f32 number nearest `512^(-1/2)`, as a rational. -/
def scale : EReal := ((268435456 / 11863283 : ℝ) : EReal)

/-- Key `r` of the first tile, and of the second. -/
def lo (r : Fin 2048) : Fin 4096 := ⟨r.val, by omega⟩
def hi (r : Fin 2048) : Fin 4096 := ⟨2048 + r.val, by omega⟩

/-- A sum over the 4096 keys is the sum over the first tile plus the sum over the second. -/
theorem sum_tiles {M : Type*} [AddCommMonoid M] (f : Fin 4096 → M) : ∑ k, f k = (∑ r, f (lo r)) + ∑ r, f (hi r) :=
  Fin.sum_univ_add (a := 2048) (b := 2048) f

variable (x1 : (⟨3, ![32, 64, 512]⟩ : Shape).Idx → EReal) (x2 : (⟨3, ![32, 4096, 512]⟩ : Shape).Idx → EReal)
  (wq : (⟨2, ![512, 512]⟩ : Shape).Idx → EReal) (bq : (⟨1, ![512]⟩ : Shape).Idx → EReal)
  (wk : (⟨2, ![512, 512]⟩ : Shape).Idx → EReal) (bk : (⟨1, ![512]⟩ : Shape).Idx → EReal)
  (wv : (⟨2, ![512, 512]⟩ : Shape).Idx → EReal) (bv : (⟨1, ![512]⟩ : Shape).Idx → EReal)

/-- The scaled score of query row `p` against key `k` in batch `b`. -/
def score (b : Fin 32) (p : Fin 64) (k : Fin 4096) : EReal :=
  (∑ e : Fin 512, lin x1 wq bq b p e * lin x2 wk bk b k e) * scale

/-- The row's maximum score, folded from `⊥`. -/
def rowMax (b : Fin 32) (p : Fin 64) : EReal :=
  max ⊥ ((Finset.univ : Finset (Fin 4096)).fold max ⊥ fun k => score x1 x2 wq bq wk bk b p k)

/-- THE PLAIN ARRANGEMENT: the softmax-weighted sum of the values over all keys. -/
def out (b : Fin 32) (p : Fin 64) (e : Fin 512) : EReal :=
  ∑ k : Fin 4096,
    Ideal.div (Ideal.exp (score x1 x2 wq bq wk bk b p k - rowMax x1 x2 wq bq wk bk b p))
        (0 + ∑ k' : Fin 4096, Ideal.exp (score x1 x2 wq bq wk bk b p k' - rowMax x1 x2 wq bq wk bk b p))
      * lin x2 wv bv b k e

/-- The running maximum after the first tile, and after the second. -/
def tileMax0 (b : Fin 32) (p : Fin 64) : EReal :=
  max ⊥ ((Finset.univ : Finset (Fin 2048)).fold max ⊥ fun r => score x1 x2 wq bq wk bk b p (lo r))
def tileMax1 (b : Fin 32) (p : Fin 64) : EReal :=
  max (tileMax0 x1 x2 wq bq wk bk b p) ((Finset.univ : Finset (Fin 2048)).fold max ⊥ fun r => score x1 x2 wq bq wk bk b p (hi r))

/-- THE TILED ARRANGEMENT: the running weighted sum over the running weight sum, after the second tile. -/
def tiledOut (b : Fin 32) (p : Fin 64) (e : Fin 512) : EReal :=
  Ideal.div
    (Ideal.exp (tileMax0 x1 x2 wq bq wk bk b p - tileMax1 x1 x2 wq bq wk bk b p)
        * (Ideal.exp (⊥ - tileMax0 x1 x2 wq bq wk bk b p) * 0
            + ∑ r : Fin 2048, Ideal.exp (score x1 x2 wq bq wk bk b p (lo r) - tileMax0 x1 x2 wq bq wk bk b p) * lin x2 wv bv b (lo r) e)
      + ∑ r : Fin 2048, Ideal.exp (score x1 x2 wq bq wk bk b p (hi r) - tileMax1 x1 x2 wq bq wk bk b p) * lin x2 wv bv b (hi r) e)
    (Ideal.exp (tileMax0 x1 x2 wq bq wk bk b p - tileMax1 x1 x2 wq bq wk bk b p)
        * (Ideal.exp (⊥ - tileMax0 x1 x2 wq bq wk bk b p) * 0
            + ∑ r : Fin 2048, Ideal.exp (score x1 x2 wq bq wk bk b p (lo r) - tileMax0 x1 x2 wq bq wk bk b p))
      + ∑ r : Fin 2048, Ideal.exp (score x1 x2 wq bq wk bk b p (hi r) - tileMax1 x1 x2 wq bq wk bk b p))

/-! ## Real inputs give real projections, scores and maxima -/

theorem lin_real {N : ℕ} {x : (⟨3, ![32, N, 512]⟩ : Shape).Idx → EReal} {w : (⟨2, ![512, 512]⟩ : Shape).Idx → EReal}
    {bias : (⟨1, ![512]⟩ : Shape).Idx → EReal} (hx : ∀ i, IsReal (x i)) (hw : ∀ i, IsReal (w i)) (hb : ∀ i, IsReal (bias i))
    (b : Fin 32) (n : Fin N) (e : Fin 512) : IsReal (lin x w bias b n e) :=
  (IsReal.sum _ _ fun _ => (hx _).mul (hw _)).add (hb _)

variable {x1 x2 wq bq wk bk wv bv}

theorem score_real (h1 : ∀ i, IsReal (x1 i)) (h2 : ∀ i, IsReal (x2 i)) (hwq : ∀ i, IsReal (wq i)) (hbq : ∀ i, IsReal (bq i))
    (hwk : ∀ i, IsReal (wk i)) (hbk : ∀ i, IsReal (bk i)) (b : Fin 32) (p : Fin 64) (k : Fin 4096) :
    IsReal (score x1 x2 wq bq wk bk b p k) :=
  (IsReal.sum _ _ fun _ => (lin_real h1 hwq hbq _ _ _).mul (lin_real h2 hwk hbk _ _ _)).mul (IsReal.coe _)

/-- THE TWO ARRANGEMENTS AGREE for real inputs. -/
theorem tiled_eq_out (h1 : ∀ i, IsReal (x1 i)) (h2 : ∀ i, IsReal (x2 i)) (hwq : ∀ i, IsReal (wq i)) (hbq : ∀ i, IsReal (bq i))
    (hwk : ∀ i, IsReal (wk i)) (hbk : ∀ i, IsReal (bk i)) (hwv : ∀ i, IsReal (wv i)) (hbv : ∀ i, IsReal (bv i))
    (b : Fin 32) (p : Fin 64) (e : Fin 512) :
    tiledOut x1 x2 wq bq wk bk wv bv b p e = out x1 x2 wq bq wk bk wv bv b p e := by
  haveI : Nonempty (Fin 2048) := ⟨⟨0, by omega⟩⟩
  haveI : Nonempty (Fin 4096) := ⟨⟨0, by omega⟩⟩
  have hs := score_real h1 h2 hwq hbq hwk hbk b p
  have hm0 : IsReal (tileMax0 x1 x2 wq bq wk bk b p) := by
    unfold tileMax0; rw [max_eq_right bot_le]; exact isReal_fold_max _ fun r => hs (lo r)
  have hm1 : IsReal (tileMax1 x1 x2 wq bq wk bk b p) := by
    unfold tileMax1; exact hm0.max (isReal_fold_max _ fun r => hs (hi r))
  have hM : IsReal (rowMax x1 x2 wq bq wk bk b p) := by
    unfold rowMax; rw [max_eq_right bot_le]; exact isReal_fold_max _ hs
  unfold tiledOut out
  simp only [sum_tiles]
  exact two_tiles (fun r => score x1 x2 wq bq wk bk b p (lo r)) (fun r => lin x2 wv bv b (lo r) e)
    (fun r => score x1 x2 wq bq wk bk b p (hi r)) (fun r => lin x2 wv bv b (hi r) e)
    (tileMax0 x1 x2 wq bq wk bk b p) (tileMax1 x1 x2 wq bq wk bk b p) (rowMax x1 x2 wq bq wk bk b p)
    (fun r => hs (lo r)) (fun r => lin_real h2 hwv hbv _ _ _) (fun r => hs (hi r)) (fun r => lin_real h2 hwv hbv _ _ _) hm0 hm1 hM

end Cert.Attention

end
-- ==== Proof.BlockValue.lean ====
/-
  One batch's output block, from its blocks of the inputs, is the tiled arrangement of attention.

  Fix a batch `b`. The body sees the batch's block of `x1`, the two 2048-row tiles of the batch's `x2`, the three weights
  transposed, and the three biases. The first tile's point leaves the projected queries `Q`, the running maximum `M₀`, the
  running weight sum `L₀` and the running weighted sum `Acc₀` (from the reset values −∞, 0, 0); the second tile's point updates
  them and stores the quotient. Entry by entry: `Q` is the query projection, each tile's scores are the scaled scores of
  its keys, its projected values the values of its keys, `M₀` and the updated maximum are the running maxima of the tiled
  arrangement, and the stored quotient is `Cert.Attention.tiledOut`.
-/
import proofs.«134487_j39676907885250_2_alg».proof.Proof.Payloads
import proofs.«134487_j39676907885250_2_alg».proof.Proof.Attention

noncomputable section

namespace Cert.KernelIdeal.BlockValue

open Idealize.ShloMosaic Idealize.ShloMosaic.ValueIdx
open Cert.KernelIdeal Cert.KernelIdeal.Gen Cert.KernelIdeal.Payloads Cert.Attention

variable (x1 : (⟨3, ![32, 64, 512]⟩ : Shape).Idx → EReal) (x2 : (⟨3, ![32, 4096, 512]⟩ : Shape).Idx → EReal)
  (wq : (⟨2, ![512, 512]⟩ : Shape).Idx → EReal) (bq : (⟨1, ![512]⟩ : Shape).Idx → EReal)
  (wk : (⟨2, ![512, 512]⟩ : Shape).Idx → EReal) (bk : (⟨1, ![512]⟩ : Shape).Idx → EReal)
  (wv : (⟨2, ![512, 512]⟩ : Shape).Idx → EReal) (bv : (⟨1, ![512]⟩ : Shape).Idx → EReal)
  (b : Fin 32)
  (X0 : Vec Ideal S1x64x512 .f32) (Xa Xb : Vec Ideal S1x2048x512 .f32)
  (Wq Wka Wkb Wva Wvb : Vec Ideal S512x512 .bf16) (Bq Bka Bkb Bva Bvb : Vec Ideal S512 .f32)

/-- What the blocks are of the arrays: the batch's rows of `x1`, its two key tiles of `x2`, the weights transposed, the biases
    (the key and value weights and biases as each of the two points finds them). -/
structure Blocks : Prop where
  x0 : ∀ (p : Fin 64) (d : Fin 512), X0 (ix3 (0 : Fin 1) p d) = x1 (ix3 b p d)
  xa : ∀ (r : Fin 2048) (d : Fin 512), Xa (ix3 (0 : Fin 1) r d) = x2 (ix3 b (lo r) d)
  xb : ∀ (r : Fin 2048) (d : Fin 512), Xb (ix3 (0 : Fin 1) r d) = x2 (ix3 b (hi r) d)
  wq : ∀ (d e : Fin 512), Wq (ix2 d e) = wq (ix2 e d)
  wka : ∀ (d e : Fin 512), Wka (ix2 d e) = wk (ix2 e d)
  wkb : ∀ (d e : Fin 512), Wkb (ix2 d e) = wk (ix2 e d)
  wva : ∀ (d e : Fin 512), Wva (ix2 d e) = wv (ix2 e d)
  wvb : ∀ (d e : Fin 512), Wvb (ix2 d e) = wv (ix2 e d)
  bq : ∀ e : Fin 512, Bq (ix1 e) = bq (ix1 e)
  bka : ∀ e : Fin 512, Bka (ix1 e) = bk (ix1 e)
  bkb : ∀ e : Fin 512, Bkb (ix1 e) = bk (ix1 e)
  bva : ∀ e : Fin 512, Bva (ix1 e) = bv (ix1 e)
  bvb : ∀ e : Fin 512, Bvb (ix1 e) = bv (ix1 e)

variable {x1 x2 wq bq wk bk wv bv b X0 Xa Xb Wq Wka Wkb Wva Wvb Bq Bka Bkb Bva Bvb}
variable (h : Blocks x1 x2 wq bq wk bk wv bv b X0 Xa Xb Wq Wka Wkb Wva Wvb Bq Bka Bkb Bva Bvb)
include h

theorem query_eq (p : Fin 64) (e : Fin 512) : k0_pay5 (F := Ideal) X0 Wq Bq (ix2 p e) = lin x1 wq bq b p e := by
  rw [query_apply]; unfold lin; simp only [h.x0, h.wq, h.bq]

theorem score_lo (p : Fin 64) (r : Fin 2048) :
    k0_pay11 (F := Ideal) Xa Wka Bka (k0_pay5 (F := Ideal) X0 Wq Bq) (ix2 p r) = score x1 x2 wq bq wk bk b p (lo r) := by
  rw [score_apply]; unfold score lin Payloads.scale Attention.scale
  simp only [query_apply, h.x0, h.xa, h.wq, h.wka, h.bq, h.bka]

theorem score_hi (p : Fin 64) (r : Fin 2048) :
    k0_pay11 (F := Ideal) Xb Wkb Bkb (k0_pay5 (F := Ideal) X0 Wq Bq) (ix2 p r) = score x1 x2 wq bq wk bk b p (hi r) := by
  rw [score_apply]; unfold score lin Payloads.scale Attention.scale
  simp only [query_apply, h.x0, h.xb, h.wq, h.wkb, h.bq, h.bkb]

theorem value_lo (r : Fin 2048) (e : Fin 512) : k0_pay10 (F := Ideal) Xa Wva Bva (ix2 r e) = lin x2 wv bv b (lo r) e := by
  rw [value_apply]; unfold lin; simp only [h.xa, h.wva, h.bva]

theorem value_hi (r : Fin 2048) (e : Fin 512) : k0_pay10 (F := Ideal) Xb Wvb Bvb (ix2 r e) = lin x2 wv bv b (hi r) e := by
  rw [value_apply]; unfold lin; simp only [h.xb, h.wvb, h.bvb]

/-- The running maximum after the first tile. -/
theorem max0_eq (p : Fin 64) (u : Fin 1) :
    k0_pay12 (F := Ideal) Xa Wka Bka (k0_pay5 (F := Ideal) X0 Wq Bq) (k0_pay6 (F := Ideal)) (ix2 p u)
      = tileMax0 x1 x2 wq bq wk bk b p := by
  rw [running_max_apply, reset_max_apply]; unfold tileMax0; simp only [score_lo h]

/-- The running maximum after the second tile. -/
theorem max1_eq (p : Fin 64) (u : Fin 1) :
    k0_pay12 (F := Ideal) Xb Wkb Bkb (k0_pay5 (F := Ideal) X0 Wq Bq)
        (k0_pay12 (F := Ideal) Xa Wka Bka (k0_pay5 (F := Ideal) X0 Wq Bq) (k0_pay6 (F := Ideal))) (ix2 p u)
      = tileMax1 x1 x2 wq bq wk bk b p := by
  rw [running_max_apply, max0_eq h]; unfold tileMax1; simp only [score_hi h]

/-- THE BLOCK: what the second tile's point stores at `(0, p, e)` is the tiled arrangement at `(b, p, e)`. -/
theorem block_value (u : Fin 1) (p : Fin 64) (e : Fin 512) :
    k0_pay4 (F := Ideal)
        (k0_pay2 (F := Ideal) (k0_pay10 (F := Ideal) Xb Wvb Bvb)
          (k0_pay13 (F := Ideal) Xb Wkb Bkb (k0_pay5 (F := Ideal) X0 Wq Bq) (k0_pay3 (F := Ideal) (k0_pay12 (F := Ideal) Xa Wka Bka (k0_pay5 (F := Ideal) X0 Wq Bq) (k0_pay6 (F := Ideal)))))
          (k0_pay14 (F := Ideal) Xb Wkb Bkb (k0_pay5 (F := Ideal) X0 Wq Bq) (k0_pay3 (F := Ideal) (k0_pay12 (F := Ideal) Xa Wka Bka (k0_pay5 (F := Ideal) X0 Wq Bq) (k0_pay6 (F := Ideal)))))
          (k0_pay2 (F := Ideal) (k0_pay10 (F := Ideal) Xa Wva Bva)
            (k0_pay13 (F := Ideal) Xa Wka Bka (k0_pay5 (F := Ideal) X0 Wq Bq) (k0_pay6 (F := Ideal)))
            (k0_pay14 (F := Ideal) Xa Wka Bka (k0_pay5 (F := Ideal) X0 Wq Bq) (k0_pay6 (F := Ideal)))
            (k0_pay8 (F := Ideal))))
        (k0_pay1 (F := Ideal)
          (k0_pay13 (F := Ideal) Xb Wkb Bkb (k0_pay5 (F := Ideal) X0 Wq Bq) (k0_pay3 (F := Ideal) (k0_pay12 (F := Ideal) Xa Wka Bka (k0_pay5 (F := Ideal) X0 Wq Bq) (k0_pay6 (F := Ideal)))))
          (k0_pay14 (F := Ideal) Xb Wkb Bkb (k0_pay5 (F := Ideal) X0 Wq Bq) (k0_pay3 (F := Ideal) (k0_pay12 (F := Ideal) Xa Wka Bka (k0_pay5 (F := Ideal) X0 Wq Bq) (k0_pay6 (F := Ideal)))))
          (k0_pay1 (F := Ideal)
            (k0_pay13 (F := Ideal) Xa Wka Bka (k0_pay5 (F := Ideal) X0 Wq Bq) (k0_pay6 (F := Ideal)))
            (k0_pay14 (F := Ideal) Xa Wka Bka (k0_pay5 (F := Ideal) X0 Wq Bq) (k0_pay6 (F := Ideal)))
            (k0_pay7 (F := Ideal))))
        (ix3 u p e)
      = tiledOut x1 x2 wq bq wk bk wv bv b p e := by
  unfold tiledOut
  simp only [store_max_eq]
  rw [quotient_apply, running_acc_apply, running_sum_apply, running_acc_apply, running_sum_apply]
  simp only [rescale_apply, weight_apply, reset_max_apply, reset_sum_apply, reset_acc_apply, max0_eq h, max1_eq h,
    score_lo h, score_hi h, value_lo h, value_hi h]

end Cert.KernelIdeal.BlockValue

end
-- ==== Proof.KernelValue.lean ====
/-
  The kernel's result array, as one function of its argument arrays: the tiled arrangement of attention.

  The grid has 64 points: point `t` works on batch `t / 2` and on key tile `t % 2`. The windows' blocks at a point are read
  off the arrays: the batch's rows of `x1`, the tile's rows of `x2`, the whole transposed weights (which the host wrote
  before the launch) and the whole biases. The even points leave, in the carried scratch, the values the first tile
  computes; the odd points compute the second tile over them and store the batch's output block, which the pipeline
  writes back there and only there. Those 32 blocks tile the result array, and each is, entry by entry, the tiled
  arrangement `Cert.Attention.tiledOut` of the argument arrays (`Cert.KernelIdeal.BlockValue.block_value`).
-/
import proofs.«134487_j39676907885250_2_alg».proof.Proof.Gen.KernelIdeal.Value
import proofs.«134487_j39676907885250_2_alg».proof.Proof.Pieces
import proofs.«134487_j39676907885250_2_alg».proof.Proof.BlockValue
import Idealize.ShloMosaic.Lib.Pipeline.Value
import Idealize.ShloMosaic.Lib.ValueLayout
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

/-- The result as a function of the argument arrays: the tiled arrangement, index by index. -/
def G (x1 : S32x64x512.Idx → EReal) (x2 : S32x4096x512.Idx → EReal) (wq : S512x512.Idx → EReal) (bq : S512.Idx → EReal)
    (wk : S512x512.Idx → EReal) (bk : S512.Idx → EReal) (wv : S512x512.Idx → EReal) (bv : S512.Idx → EReal) :
    S32x64x512.Idx → EReal :=
  fun i => tiledOut x1 x2 wq bq wk bk wv bv (i 0) (i 1) (i 2)

/-! ## The windows' blocks, read off the arrays -/

/-- The printed index maps, decided over the grid: the batch is `t / 2`, the key tile `t % 2`; the weights' and biases'
    blocks are the whole arrays. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val / 2 ∧ win0_8.index t (1 : Fin 3) = 0 ∧ win0_8.index t (2 : Fin 3) = 0 :=
  (by decide +kernel : ∀ t : Fin grid0.N, _)

theorem batch_lt (t : Fin cfg0.N) : t.val / 2 < 32 := by
  have := lt_of_lt_of_eq t.isLt (show cfg0.N = 64 from N_0); omega

/-- The block of `x1` at point `t`: the rows of batch `t / 2`. -/
theorem x1_block (c : Dev nD) (t : Fin cfg0.N) (p : Fin 64) (d : Fin 512) :
    iblk m c 0 t (ix3 (0 : Fin 1) p d) = m ((c : Thread nD τ).loc main_arg0) (ix3 (⟨t.val / 2, batch_lt t⟩ : Fin 32) p d) := by
  obtain ⟨e0, e1, e2, -⟩ := idx_facts t
  show V m c main_arg0 (((cfg0.win 0).blk t).view.emb (ix3 (0 : Fin 1) p d)) = _
  rw [V_main_arg0]
  refine congrArg _ ?_
  funext a; apply Fin.ext
  match a with
  | ⟨0, _⟩ => show win0_0.index t (0 : Fin 3) * 1 + 1 * 0 = t.val / 2; omega
  | ⟨1, _⟩ => show win0_0.index t (1 : Fin 3) * 64 + 1 * p.val = p.val; omega
  | ⟨2, _⟩ => show win0_0.index t (2 : Fin 3) * 512 + 1 * d.val = d.val; omega

theorem key_lt (t : Fin cfg0.N) (r : Fin 2048) : t.val % 2 * 2048 + r.val < 4096 := by
  have := r.isLt; have : t.val % 2 < 2 := Nat.mod_lt _ (by omega); omega

/-- The block of `x2` at point `t`: the rows of key tile `t % 2` of batch `t / 2`. -/
theorem x2_block (c : Dev nD) (t : Fin cfg0.N) (r : Fin 2048) (d : Fin 512) :
    iblk m c 1 t (ix3 (0 : Fin 1) r d)
      = m ((c : Thread nD τ).loc main_arg1) (ix3 (⟨t.val / 2, batch_lt t⟩ : Fin 32) (⟨t.val % 2 * 2048 + r.val, key_lt t r⟩ : Fin 4096) d) := by
  obtain ⟨-, -, -, e0, e1, e2, -⟩ := idx_facts t
  show V m c main_arg1 (((cfg0.win 1).blk t).view.emb (ix3 (0 : Fin 1) r d)) = _
  rw [V_main_arg1]
  refine congrArg _ ?_
  funext a; apply Fin.ext
  match a with
  | ⟨0, _⟩ => show win0_1.index t (0 : Fin 3) * 1 + 1 * 0 = t.val / 2; omega
  | ⟨1, _⟩ => show win0_1.index t (1 : Fin 3) * 2048 + 1 * r.val = t.val % 2 * 2048 + r.val; omega
  | ⟨2, _⟩ => show win0_1.index t (2 : Fin 3) * 512 + 1 * d.val = d.val; omega

/-- What the host wrote before the launch: each weight transposed (the change of float format is the identity here). -/
theorem V_wqT (c : Dev nD) : (V m c main_v1 : S512x512.Idx → EReal)
    = truncf (F := Ideal) .bf16 (transpose S512x512 [1, 0] (m ((c : Thread nD τ).loc main_arg3)) transposes_S512x512_S512x512_1_0) bitsLt_bf16_f32 := by
  dsimp only [Gen.V, Gen.hostOps0]; after_results
theorem V_wkT (c : Dev nD) : (V m c main_v3 : S512x512.Idx → EReal)
    = truncf (F := Ideal) .bf16 (transpose S512x512 [1, 0] (m ((c : Thread nD τ).loc main_arg5)) transposes_S512x512_S512x512_1_0) bitsLt_bf16_f32 := by
  dsimp only [Gen.V, Gen.hostOps0]; after_results
theorem V_wvT (c : Dev nD) : (V m c main_v5 : S512x512.Idx → EReal)
    = truncf (F := Ideal) .bf16 (transpose S512x512 [1, 0] (m ((c : Thread nD τ).loc main_arg7)) transposes_S512x512_S512x512_1_0) bitsLt_bf16_f32 := by
  dsimp only [Gen.V, Gen.hostOps0]; after_results

/-- The block of a transposed weight at any point: the whole transposed weight. -/
theorem wq_block (c : Dev nD) (t : Fin cfg0.N) (d e : Fin 512) :
    iblk m c 2 t (ix2 d e) = m ((c : Thread nD τ).loc main_arg3) (ix2 e d) := by
  obtain ⟨-, -, -, -, -, -, e0, e1, -⟩ := idx_facts t
  have hemb : ((cfg0.win 2).blk t).view.emb (ix2 d e) = ix2 d e := by
    funext a; apply Fin.ext
    match a with
    | ⟨0, _⟩ => show win0_2.index t (0 : Fin 2) * 512 + 1 * d.val = d.val; omega
    | ⟨1, _⟩ => show win0_2.index t (1 : Fin 2) * 512 + 1 * e.val = e.val; omega
  show V m c main_v1 (((cfg0.win 2).blk t).view.emb (ix2 d e)) = _
  rw [hemb, V_wqT, truncf_apply, transpose_ix2_apply]

theorem wk_block (c : Dev nD) (t : Fin cfg0.N) (d e : Fin 512) :
    iblk m c 4 t (ix2 d e) = m ((c : Thread nD τ).loc main_arg5) (ix2 e d) := by
  obtain ⟨-, -, -, -, -, -, -, -, -, e0, e1, -⟩ := idx_facts t
  have hemb : ((cfg0.win 4).blk t).view.emb (ix2 d e) = ix2 d e := by
    funext a; apply Fin.ext
    match a with
    | ⟨0, _⟩ => show win0_4.index t (0 : Fin 2) * 512 + 1 * d.val = d.val; omega
    | ⟨1, _⟩ => show win0_4.index t (1 : Fin 2) * 512 + 1 * e.val = e.val; omega
  show V m c main_v3 (((cfg0.win 4).blk t).view.emb (ix2 d e)) = _
  rw [hemb, V_wkT, truncf_apply, transpose_ix2_apply]

theorem wv_block (c : Dev nD) (t : Fin cfg0.N) (d e : Fin 512) :
    iblk m c 6 t (ix2 d e) = m ((c : Thread nD τ).loc main_arg7) (ix2 e d) := by
  obtain ⟨-, -, -, -, -, -, -, -, -, -, -, -, e0, e1, -⟩ := idx_facts t
  have hemb : ((cfg0.win 6).blk t).view.emb (ix2 d e) = ix2 d e := by
    funext a; apply Fin.ext
    match a with
    | ⟨0, _⟩ => show win0_6.index t (0 : Fin 2) * 512 + 1 * d.val = d.val; omega
    | ⟨1, _⟩ => show win0_6.index t (1 : Fin 2) * 512 + 1 * e.val = e.val; omega
  show V m c main_v5 (((cfg0.win 6).blk t).view.emb (ix2 d e)) = _
  rw [hemb, V_wvT, truncf_apply, transpose_ix2_apply]

/-- The block of a bias at any point: the whole bias. -/
theorem bq_block (c : Dev nD) (t : Fin cfg0.N) (e : Fin 512) :
    iblk m c 3 t (ix1 e) = m ((c : Thread nD τ).loc main_arg4) (ix1 e) := by
  obtain ⟨-, -, -, -, -, -, -, -, e0, -⟩ := idx_facts t
  show V m c main_arg4 (((cfg0.win 3).blk t).view.emb (ix1 e)) = _
  rw [V_main_arg4]
  refine congrArg _ ?_
  funext a; apply Fin.ext
  match a with
  | ⟨0, _⟩ => show win0_3.index t (0 : Fin 1) * 512 + 1 * e.val = e.val; omega

theorem bk_block (c : Dev nD) (t : Fin cfg0.N) (e : Fin 512) :
    iblk m c 5 t (ix1 e) = m ((c : Thread nD τ).loc main_arg6) (ix1 e) := by
  obtain ⟨-, -, -, -, -, -, -, -, -, -, -, e0, -⟩ := idx_facts t
  show V m c main_arg6 (((cfg0.win 5).blk t).view.emb (ix1 e)) = _
  rw [V_main_arg6]
  refine congrArg _ ?_
  funext a; apply Fin.ext
  match a with
  | ⟨0, _⟩ => show win0_5.index t (0 : Fin 1) * 512 + 1 * e.val = e.val; omega

theorem bv_block (c : Dev nD) (t : Fin cfg0.N) (e : Fin 512) :
    iblk m c 7 t (ix1 e) = m ((c : Thread nD τ).loc main_arg8) (ix1 e) := by
  obtain ⟨-, -, -, -, -, -, -, -, -, -, -, -, -, -, e0, -⟩ := idx_facts t
  show V m c main_arg8 (((cfg0.win 7).blk t).view.emb (ix1 e)) = _
  rw [V_main_arg8]
  refine congrArg _ ?_
  funext a; apply Fin.ext
  match a with
  | ⟨0, _⟩ => show win0_7.index t (0 : Fin 1) * 512 + 1 * e.val = e.val; omega

/-! ## What the first tile's point leaves in the carried scratch -/

/-- The windows' blocks at a point, each at its literal shape. -/
def X0 (c : Dev nD) (s : Fin cfg0.N) : Vec Ideal S1x64x512 .f32 := iblk m c 0 s
def X1 (c : Dev nD) (s : Fin cfg0.N) : Vec Ideal S1x2048x512 .f32 := iblk m c 1 s
def W2 (c : Dev nD) (s : Fin cfg0.N) : Vec Ideal S512x512 .bf16 := iblk m c 2 s
def B3 (c : Dev nD) (s : Fin cfg0.N) : Vec Ideal S512 .f32 := iblk m c 3 s
def W4 (c : Dev nD) (s : Fin cfg0.N) : Vec Ideal S512x512 .bf16 := iblk m c 4 s
def B5 (c : Dev nD) (s : Fin cfg0.N) : Vec Ideal S512 .f32 := iblk m c 5 s
def W6 (c : Dev nD) (s : Fin cfg0.N) : Vec Ideal S512x512 .bf16 := iblk m c 6 s
def B7 (c : Dev nD) (s : Fin cfg0.N) : Vec Ideal S512 .f32 := iblk m c 7 s

/-- After an even point `s` the query scratch holds the projected queries of the point's blocks, -/
theorem q_after_first (c : Dev nD) (s : Fin cfg0.N) (h0 : s.val % 2 = 0) :
    (outsAt0 m c s.val s.isLt).2.1 = (k0_pay5 (F := Ideal) (X0 m c s) (W2 m c s) (B3 m c s)) := by
  have h1 : ¬s.val % 2 = 1 := by omega
  rw [outsAt0_A m c s h0 h1]
  dsimp only
  exact Pieces.q_first c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) ((hcond0_0 s).mpr h0) (fun h => h1 ((hcond0_1 s).mp h)) (iblk m c 0 s) (iblk m c 1 s) (iblk m c 2 s) (iblk m c 3 s) (iblk m c 4 s) (iblk m c 5 s) (iblk m c 6 s) (iblk m c 7 s)

/-- the running maximum the first tile's, -/
theorem m_after_first (c : Dev nD) (s : Fin cfg0.N) (h0 : s.val % 2 = 0) :
    (outsAt0 m c s.val s.isLt).2.2.1 = (k0_pay3 (F := Ideal) (k0_pay12 (F := Ideal) (X1 m c s) (W4 m c s) (B5 m c s) (k0_pay5 (F := Ideal) (X0 m c s) (W2 m c s) (B3 m c s)) (k0_pay6 (F := Ideal)))) := by
  have h1 : ¬s.val % 2 = 1 := by omega
  rw [outsAt0_A m c s h0 h1]
  dsimp only
  exact Pieces.m_first c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) ((hcond0_0 s).mpr h0) (fun h => h1 ((hcond0_1 s).mp h)) (iblk m c 0 s) (iblk m c 1 s) (iblk m c 2 s) (iblk m c 3 s) (iblk m c 4 s) (iblk m c 5 s) (iblk m c 6 s) (iblk m c 7 s)

/-- the running weight sum the first tile's, -/
theorem l_after_first (c : Dev nD) (s : Fin cfg0.N) (h0 : s.val % 2 = 0) :
    (outsAt0 m c s.val s.isLt).2.2.2.1 = (k0_pay1 (F := Ideal) (k0_pay13 (F := Ideal) (X1 m c s) (W4 m c s) (B5 m c s) (k0_pay5 (F := Ideal) (X0 m c s) (W2 m c s) (B3 m c s)) (k0_pay6 (F := Ideal))) (k0_pay14 (F := Ideal) (X1 m c s) (W4 m c s) (B5 m c s) (k0_pay5 (F := Ideal) (X0 m c s) (W2 m c s) (B3 m c s)) (k0_pay6 (F := Ideal))) (k0_pay7 (F := Ideal))) := by
  have h1 : ¬s.val % 2 = 1 := by omega
  rw [outsAt0_A m c s h0 h1]
  dsimp only
  exact Pieces.l_first c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) ((hcond0_0 s).mpr h0) (fun h => h1 ((hcond0_1 s).mp h)) (iblk m c 0 s) (iblk m c 1 s) (iblk m c 2 s) (iblk m c 3 s) (iblk m c 4 s) (iblk m c 5 s) (iblk m c 6 s) (iblk m c 7 s)

/-- and the running weighted sum the first tile's. -/
theorem acc_after_first (c : Dev nD) (s : Fin cfg0.N) (h0 : s.val % 2 = 0) :
    (outsAt0 m c s.val s.isLt).2.2.2.2 = (k0_pay2 (F := Ideal) (k0_pay10 (F := Ideal) (X1 m c s) (W6 m c s) (B7 m c s)) (k0_pay13 (F := Ideal) (X1 m c s) (W4 m c s) (B5 m c s) (k0_pay5 (F := Ideal) (X0 m c s) (W2 m c s) (B3 m c s)) (k0_pay6 (F := Ideal))) (k0_pay14 (F := Ideal) (X1 m c s) (W4 m c s) (B5 m c s) (k0_pay5 (F := Ideal) (X0 m c s) (W2 m c s) (B3 m c s)) (k0_pay6 (F := Ideal))) (k0_pay8 (F := Ideal))) := by
  have h1 : ¬s.val % 2 = 1 := by omega
  rw [outsAt0_A m c s h0 h1]
  dsimp only
  exact Pieces.acc_first c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) ((hcond0_0 s).mpr h0) (fun h => h1 ((hcond0_1 s).mp h)) (iblk m c 0 s) (iblk m c 1 s) (iblk m c 2 s) (iblk m c 3 s) (iblk m c 4 s) (iblk m c 5 s) (iblk m c 6 s) (iblk m c 7 s)

/-! ## The output block the second tile's point stores -/

/-- The blocks of a batch's two points are what the block theorem asks: the batch's rows, its two key tiles, the weights
    transposed and the biases. -/
theorem blocks_of (c : Dev nD) (s t : Fin cfg0.N) (hs : s.val % 2 = 0) (hst : t.val = s.val + 1) :
    BlockValue.Blocks (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (⟨t.val / 2, batch_lt t⟩ : Fin 32)
      (X0 m c s) (X1 m c s) (X1 m c t) (W2 m c s) (W4 m c s) (W4 m c t) (W6 m c s) (W6 m c t)
      (B3 m c s) (B5 m c s) (B5 m c t) (B7 m c s) (B7 m c t) where
  x0 p d := by
    show iblk m c 0 s (ix3 (0 : Fin 1) p d) = _
    rw [x1_block]
    exact congrArg (fun bb : Fin 32 => (m ((c : Thread nD τ).loc main_arg0)) (ix3 bb p d)) (Fin.ext (by show s.val / 2 = t.val / 2; omega))
  xa r d := by
    show iblk m c 1 s (ix3 (0 : Fin 1) r d) = _
    rw [x2_block]
    exact congrArg₂ (fun (bb : Fin 32) (kk : Fin 4096) => (m ((c : Thread nD τ).loc main_arg1)) (ix3 bb kk d))
      (Fin.ext (by show s.val / 2 = t.val / 2; omega)) (Fin.ext (by show s.val % 2 * 2048 + r.val = r.val; omega))
  xb r d := by
    show iblk m c 1 t (ix3 (0 : Fin 1) r d) = _
    rw [x2_block]
    exact congrArg (fun kk : Fin 4096 => (m ((c : Thread nD τ).loc main_arg1)) (ix3 (⟨t.val / 2, batch_lt t⟩ : Fin 32) kk d))
      (Fin.ext (by show t.val % 2 * 2048 + r.val = 2048 + r.val; omega))
  wq d e := wq_block m c s d e
  wka d e := wk_block m c s d e
  wkb d e := wk_block m c t d e
  wva d e := wv_block m c s d e
  wvb d e := wv_block m c t d e
  bq e := bq_block m c s e
  bka e := bk_block m c s e
  bkb e := bk_block m c t e
  bva e := bv_block m c s e
  bvb e := bv_block m c t e

/-- WHAT A FLUSHING POINT WRITES BACK is its block of the tiled arrangement of the argument arrays. -/
theorem flushed_eq (c : Dev nD) (t : Fin cfg0.N) (hf : (cfg0.win 8).flush t = true) :
    (dats m 0 c).flushed 8 t = ((cfg0.win 8).blk t).view.read (Elt Ideal) (G (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h1 : t.val % 2 = 1 := (flush0_8 t).mp hf
  have h0 : ¬t.val % 2 = 0 := by omega
  have hs_lt : t.val - 1 < cfg0.N := Nat.lt_of_le_of_lt (Nat.sub_le _ _) t.isLt
  have hs0 : (⟨t.val - 1, hs_lt⟩ : Fin cfg0.N).val % 2 = 0 := by show (t.val - 1) % 2 = 0; omega
  have hst : t.val = (⟨t.val - 1, hs_lt⟩ : Fin cfg0.N).val + 1 := by show t.val = t.val - 1 + 1; omega
  rw [Value.flushed8_B m c t h0 h1]
  refine (congrArg ((cfg0.win 8).cut (grid0.coords t))
    (Pieces.out_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)
      (outsAt0 m c (⟨t.val - 1, hs_lt⟩ : Fin cfg0.N).val (⟨t.val - 1, hs_lt⟩ : Fin cfg0.N).isLt).2.1 (outsAt0 m c (⟨t.val - 1, hs_lt⟩ : Fin cfg0.N).val (⟨t.val - 1, hs_lt⟩ : Fin cfg0.N).isLt).2.2.1 (outsAt0 m c (⟨t.val - 1, hs_lt⟩ : Fin cfg0.N).val (⟨t.val - 1, hs_lt⟩ : Fin cfg0.N).isLt).2.2.2.1 (outsAt0 m c (⟨t.val - 1, hs_lt⟩ : Fin cfg0.N).val (⟨t.val - 1, hs_lt⟩ : Fin cfg0.N).isLt).2.2.2.2)).trans ?_
  rw [q_after_first m c (⟨t.val - 1, hs_lt⟩ : Fin cfg0.N) hs0, m_after_first m c (⟨t.val - 1, hs_lt⟩ : Fin cfg0.N) hs0, l_after_first m c (⟨t.val - 1, hs_lt⟩ : Fin cfg0.N) hs0, acc_after_first m c (⟨t.val - 1, hs_lt⟩ : Fin cfg0.N) hs0]
  funext j
  obtain ⟨u, p, e, rfl⟩ : ∃ (u : Fin 1) (p : Fin 64) (e : Fin 512), j = ix3 u p e := ⟨j 0, j 1, j 2, eq_ix3 j⟩
  refine (BlockValue.block_value (blocks_of m c (⟨t.val - 1, hs_lt⟩ : Fin cfg0.N) t hs0 hst) u p e).trans ?_
  obtain ⟨-, -, -, -, -, -, -, -, -, -, -, -, -, -, -, e0, e1, e2⟩ := idx_facts t
  have hb : ((cfg0.win 8).blk t).view.emb (ix3 u p e) (0 : Fin 3) = (⟨t.val / 2, batch_lt t⟩ : Fin 32) :=
    Fin.ext (by show win0_8.index t (0 : Fin 3) * 1 + 1 * u.val = t.val / 2; have := u.isLt; omega)
  have hp : ((cfg0.win 8).blk t).view.emb (ix3 u p e) (1 : Fin 3) = p :=
    Fin.ext (by show win0_8.index t (1 : Fin 3) * 64 + 1 * p.val = p.val; omega)
  have he : ((cfg0.win 8).blk t).view.emb (ix3 u p e) (2 : Fin 3) = e :=
    Fin.ext (by show win0_8.index t (2 : Fin 3) * 512 + 1 * e.val = e.val; omega)
  show _ = tiledOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (((cfg0.win 8).blk t).view.emb (ix3 u p e) (0 : Fin 3)) (((cfg0.win 8).blk t).view.emb (ix3 u p e) (1 : Fin 3))
    (((cfg0.win 8).blk t).view.emb (ix3 u p e) (2 : Fin 3))
  rw [hb, hp, he]

/-! ## The blocks tile the result array -/

/-- An index of the array is in point `t`'s block iff each coordinate is in the block's range on its axis. -/
theorem mem_blk (t : Fin cfg0.N) (i : S32x64x512.Idx) :
    i ∈ ((cfg0.win 8).blk t).view.set ↔ ∀ a : Fin 3, win0_8.index t a * S1x64x512.size a ≤ (i a).val ∧ (i a).val < win0_8.index t a * S1x64x512.size a + S1x64x512.size a := by
  show i ∈ ((View.whole main_v6).slice (win0_8.rect t)).set ↔ _
  rw [View.set_slice_whole, Rect.mem_set_unit]
  exact Iff.rfl

/-- THE RESULT ARRAY after the run: the tiled arrangement of the argument arrays (batch `b`'s block is written back at
    point `2 b + 1`). -/
theorem final (c : Dev nD) : (dats m 0 c).arrAt 8 cfg0.N = G (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 8 (G (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t hf => flushed_eq m c t hf) fun i => by
    have hi0 : (i 0).val < 32 := (i 0).isLt
    have hi1 : (i 1).val < 64 := (i 1).isLt
    have hi2 : (i 2).val < 512 := (i 2).isLt
    have hN : cfg0.N = 64 := N_0
    have ht : 2 * (i 0).val + 1 < cfg0.N := by omega
    refine ⟨⟨2 * (i 0).val + 1, ht⟩, (flush0_8 _).mpr (by show (2 * (i 0).val + 1) % 2 = 1; omega), ?_⟩
    rw [mem_blk]
    obtain ⟨-, -, -, -, -, -, -, -, -, -, -, -, -, -, -, e0, e1, e2⟩ := idx_facts ⟨2 * (i 0).val + 1, ht⟩
    have e0' : win0_8.index ⟨2 * (i 0).val + 1, ht⟩ (0 : Fin 3) = (2 * (i 0).val + 1) / 2 := e0
    intro a
    match a with
    | ⟨0, _⟩ =>
      show win0_8.index ⟨2 * (i 0).val + 1, ht⟩ (0 : Fin 3) * 1 ≤ (i 0).val ∧ (i 0).val < win0_8.index ⟨2 * (i 0).val + 1, ht⟩ (0 : Fin 3) * 1 + 1
      omega
    | ⟨1, _⟩ =>
      show win0_8.index ⟨2 * (i 0).val + 1, ht⟩ (1 : Fin 3) * 64 ≤ (i 1).val ∧ (i 1).val < win0_8.index ⟨2 * (i 0).val + 1, ht⟩ (1 : Fin 3) * 64 + 64
      omega
    | ⟨2, _⟩ =>
      show win0_8.index ⟨2 * (i 0).val + 1, ht⟩ (2 : Fin 3) * 512 ≤ (i 2).val ∧ (i 2).val < win0_8.index ⟨2 * (i 0).val + 1, ht⟩ (2 : Fin 3) * 512 + 512
      omega

/-! ## The run, read -/

/-- Every weakly fair execution of the kernel ends with the result array at the tiled arrangement of the argument arrays,
    the arguments unchanged. -/
theorem run : θ_run defs (onTc (τ := τ) (main (F := Ideal))) ⟨m, fun _ => 0, ρ⟩ fun r => ∀ c : Dev nD,
      r.2.mem ((c : Thread nD τ).loc main_v6) = G (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.KernelValue

end
-- ==== Proof.RefValue.lean ====
/-
  The reference program, read entry by entry: it is the plain arrangement of attention.

  The reference projects queries, keys and values by three matrix products with a bias row added, scores every query
  row against every key of its batch, divides the scores by the f32 number nearest `512^(-1/2)` — on the extended reals
  the product with its reciprocal, the rational `Cert.Attention.scale` —, subtracts each row's maximum (folded from −∞),
  exponentiates, divides by the row's sum (from 0), and contracts the weights against the values. Each step is read at an
  index through the generated stage lemmas; the row maximum, which those do not read, is the fold of `max` over the row.
-/
import proofs.«134487_j39676907885250_2_alg».proof.Proof.Gen.ReferenceIdeal.Read
import proofs.«134487_j39676907885250_2_alg».proof.Proof.Attention
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.Attention

theorem neg_inf_word : Ideal.ofBits .f32 0xFF800000#32 = ⊥ := by simp [Ideal.ofBits, Ideal.ieee]
theorem zero_word : Ideal.ofBits .f32 0x00000000#32 = 0 := by simp [Ideal.ofBits, Ideal.ieee]

/-- The divisor of the scores: the f32 word `0x3D3504F3` is `11863283 / 2^28`. -/
theorem divisor_word : Ideal.ofBits .f32 0x3D3504F3#32 = ((11863283 / 268435456 : ℝ) : EReal) := by
  simp [Ideal.ofBits, Ideal.ieee, -EReal.coe_mul]; norm_num

/-! ## The index maps of the stages, at an index named by coordinates -/

section Indices
variable (b : Fin 32) (p : Fin 64) (e d : Fin 512) (k : Fin 4096)

theorem ix_l0 : lidx_main_v0 (ix3 b p e) d = ix3 b p d := by funext a; apply Fin.ext; fin_cases a <;> rfl
theorem ix_r0 : ridx_main_v0 (ix3 b p e) d = ix2 e d := by funext a; apply Fin.ext; fin_cases a <;> rfl
theorem ix_b2 : idx_main_v1 (idx_main_v2 (ix3 b p e)) = ix1 e := by funext a; apply Fin.ext; fin_cases a; rfl
theorem ix_l4 : lidx_main_v4 (ix3 b k e) d = ix3 b k d := by funext a; apply Fin.ext; fin_cases a <;> rfl
theorem ix_r4 : ridx_main_v4 (ix3 b k e) d = ix2 e d := by funext a; apply Fin.ext; fin_cases a <;> rfl
theorem ix_b6 : idx_main_v5 (idx_main_v6 (ix3 b k e)) = ix1 e := by funext a; apply Fin.ext; fin_cases a; rfl
theorem ix_l8 : lidx_main_v8 (ix3 b k e) d = ix3 b k d := by funext a; apply Fin.ext; fin_cases a <;> rfl
theorem ix_r8 : ridx_main_v8 (ix3 b k e) d = ix2 e d := by funext a; apply Fin.ext; fin_cases a <;> rfl
theorem ix_b10 : idx_main_v9 (idx_main_v10 (ix3 b k e)) = ix1 e := by funext a; apply Fin.ext; fin_cases a; rfl
theorem ix_l12 : lidx_main_v12 (ix3 b p k) e = ix3 b p e := by funext a; apply Fin.ext; fin_cases a <;> rfl
theorem ix_r12 : ridx_main_v12 (ix3 b p k) e = ix3 b k e := by funext a; apply Fin.ext; fin_cases a <;> rfl
theorem ix_19 : idx_main_v18 (idx_main_v19 (ix3 b p k)) = ix2 b p := by funext a; apply Fin.ext; fin_cases a <;> rfl
theorem ix_22 : idx_main_v22 (ix2 b p) k = ix3 b p k := by funext a; apply Fin.ext; fin_cases a <;> rfl
theorem ix_24 : idx_main_v23 (idx_main_v24 (ix3 b p k)) = ix2 b p := by funext a; apply Fin.ext; fin_cases a <;> rfl
theorem ix_l26 : lidx_main_v26 (ix3 b p e) k = ix3 b p k := by funext a; apply Fin.ext; fin_cases a <;> rfl
theorem ix_r26 : ridx_main_v26 (ix3 b p e) k = ix3 b k e := by funext a; apply Fin.ext; fin_cases a <;> rfl

/-- A row of scores with the reduced key coordinate put back. -/
theorem lift_key (h : S32x64x4096.Reduces [2] S32x64) (j : Fin (S32x64x4096.size 2)) :
    h.lift (ix2 b p) j = ix3 b p (⟨j.val, j.isLt⟩ : Fin 4096) := by
  funext a; apply Fin.ext; fin_cases a <;> rfl

end Indices

variable (x0 : (⟨S32x64x512, .f32⟩ : BufTy).Contents (Elt Ideal)) (x1 : (⟨S32x4096x512, .f32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))

/-! ## The projections -/

theorem query_ref (b : Fin 32) (p : Fin 64) (e : Fin 512) :
    val_main_v3 (F := Ideal) x0 x3 x4 (ix3 b p e) = lin x0 x3 x4 b p e := by
  rw [val_main_v3_apply, val_main_v0_apply, val_main_v2_apply, val_main_v1_apply, ix_b2]
  simp only [ix_l0, ix_r0]
  rfl

theorem key_ref (b : Fin 32) (k : Fin 4096) (e : Fin 512) :
    val_main_v7 (F := Ideal) x1 x5 x6 (ix3 b k e) = lin x1 x5 x6 b k e := by
  rw [val_main_v7_apply, val_main_v4_apply, val_main_v6_apply, val_main_v5_apply, ix_b6]
  simp only [ix_l4, ix_r4]
  rfl

theorem value_ref (b : Fin 32) (k : Fin 4096) (e : Fin 512) :
    val_main_v11 (F := Ideal) x1 x7 x8 (ix3 b k e) = lin x1 x7 x8 b k e := by
  rw [val_main_v11_apply, val_main_v8_apply, val_main_v10_apply, val_main_v9_apply, ix_b10]
  simp only [ix_l8, ix_r8]
  rfl

/-! ## The scores, their row maxima, the weights and their row sums -/

theorem score_ref (b : Fin 32) (p : Fin 64) (k : Fin 4096) :
    val_main_v14 (F := Ideal) x0 x1 x3 x4 x5 x6 (ix3 b p k) = score x0 x1 x3 x4 x5 x6 b p k := by
  rw [val_main_v14_apply, val_main_v12_apply, val_main_v13_apply, val_main_cst_apply]
  simp only [ix_l12, ix_r12, query_ref, key_ref]
  rw [Ideal.hostDivf_def, Ideal.ofBits_def, divisor_word, Ideal.div_coe (by norm_num)]
  unfold score Attention.scale
  congr 2
  norm_num

theorem max_ref (b : Fin 32) (p : Fin 64) :
    val_main_v17 (F := Ideal) x0 x1 x3 x4 x5 x6 (ix2 b p) = rowMax x0 x1 x3 x4 x5 x6 b p := by
  rw [val_main_v17_apply, val_main_v16_apply, val_main_cst_1_apply]
  unfold val_main_v15
  rw [Host.reduce_eq_fold_single FloatOps.maximumf _ _ reducesTo_S32x64x4096_S32x64_d2 (by decide) h_S_ (ix2 b p),
    val_main_cst_0_apply]
  unfold rowMax
  rw [Ideal.maximumf_def, Ideal.ofBits_def, neg_inf_word]
  refine congrArg (max ⊥) ?_
  refine congrArg (fun f => Finset.fold max ⊥ f Finset.univ) ?_
  funext j
  exact (congrArg (val_main_v14 (F := Ideal) x0 x1 x3 x4 x5 x6) (lift_key b p _ j)).trans (score_ref x0 x1 x3 x4 x5 x6 b p _)

theorem weight_ref (b : Fin 32) (p : Fin 64) (k : Fin 4096) :
    val_main_v21 (F := Ideal) x0 x1 x3 x4 x5 x6 (ix3 b p k) = Ideal.exp (score x0 x1 x3 x4 x5 x6 b p k - rowMax x0 x1 x3 x4 x5 x6 b p) := by
  rw [val_main_v21_apply, val_main_v20_apply, val_main_v19_apply, val_main_v18_apply, score_ref, ix_19, max_ref]
  rfl

theorem sum_ref (b : Fin 32) (p : Fin 64) :
    val_main_v22 (F := Ideal) x0 x1 x3 x4 x5 x6 (ix2 b p) = 0 + ∑ k : Fin 4096, Ideal.exp (score x0 x1 x3 x4 x5 x6 b p k - rowMax x0 x1 x3 x4 x5 x6 b p) := by
  rw [val_main_v22_apply, val_main_cst_2_apply, Ideal.ofBits_def, zero_word]
  simp only [ix_22, weight_ref]

/-! ## The result -/

/-- THE REFERENCE'S RESULT at `(b, p, e)` is the plain arrangement there. -/
theorem out_ref (b : Fin 32) (p : Fin 64) (e : Fin 512) :
    val_main_v26 (F := Ideal) x0 x1 x3 x4 x5 x6 x7 x8 (ix3 b p e) = out x0 x1 x3 x4 x5 x6 x7 x8 b p e := by
  rw [val_main_v26_apply]
  unfold out
  refine Finset.sum_congr rfl fun k _ => ?_
  rw [ix_l26, ix_r26, value_ref, val_main_v25_apply, val_main_v24_apply, val_main_v23_apply, weight_ref, ix_24, sum_ref]
  rfl

end Cert.ReferenceIdeal.RefValue

end
-- ==== Proof.Finite.lean ====
/-
  The precondition, read back: every float input holds real numbers.

  The precondition compares the absolute value of every entry of every float input with +∞ and folds the comparisons by
  `and`. On the extended reals `|x| < +∞` says that `x` is neither infinity, that is, a real number; the fold by `and`
  being 1 says so of every entry of every input.
-/
import proofs.«134487_j39676907885250_2_alg».proof.Pre_finite_inputs
import proofs.«134487_j39676907885250_2_alg».proof.Proof.OnlineSoftmax
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Cert.OnlineSoftmax

/-- An extended real whose absolute value is below +∞ is a real number. -/
theorem isReal_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec
  · exfalso; simp [Ideal.cmp] at h
  · exact ⟨_, rfl⟩
  · exfalso; simp [Ideal.cmp] at h

/-- One input's test — all entries' absolute values below +∞ — gives that all its entries are real numbers. -/
theorem all_real {s : Shape} {axes : List (Fin s.rank)} (x : FVec Ideal s .f32)
    (bc : (⟨0, ![]⟩ : Shape).BroadcastsInDim s (![] : Fin 0 → Fin s.rank)) (hred : s.ReducesTo axes ⟨0, ![]⟩)
    (hu : 0 < (⟨0, ![]⟩ : Shape).numel) (init : (⟨0, ![]⟩ : Shape).Idx → BitVec 1)
    (h : Host.reduce IntOp.andi (cmpf .olt (Host.absf x) (broadcastInDim s ![] bc (constant (F := Ideal) ⟨0, ![]⟩ .f32 0x7F800000#32)))
        init hred hu ix0 = 1#1) (i : s.Idx) : IsReal (x i) := by
  haveI : Subsingleton (⟨0, ![]⟩ : Shape).Idx := ⟨fun a b => funext fun d => d.elim0⟩
  have e := Host.reduce_andi_all _ init hred hu ix0 h i
  have hb : broadcastInDim s ![] bc (constant (F := Ideal) ⟨0, ![]⟩ .f32 0x7F800000#32) i = Ideal.ofBits .f32 0x7F800000#32 :=
    broadcastInDim_apply _ bc _ i ix0 (fun a => a.elim0)
  rw [cmpf_apply, hb] at e
  exact isReal_of_abs_lt (x i) e

open Cert.Pre_finite_inputs in
/-- THE PRECONDITION gives real entries for the eight float inputs. -/
theorem real_inputs [Cert.Pre_finite_inputs.Facts]
    (a0 : FVec Ideal S32x64x512 .f32) (a1 : FVec Ideal S32x4096x512 .f32) (a2 : IVec S32x64x4096 1)
    (a3 : FVec Ideal S512x512 .f32) (a4 : FVec Ideal S512 .f32) (a5 : FVec Ideal S512x512 .f32) (a6 : FVec Ideal S512 .f32)
    (a7 : FVec Ideal S512x512 .f32) (a8 : FVec Ideal S512 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) := by
  have h0 := congrFun h ix0
  dsimp only [Cert.Pre_finite_inputs.fn, Cert.Pre_finite_inputs.fn_part1, Cert.Pre_finite_inputs.fn_part2] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h1⟩ := IntOp.andi_eq_one.1 h0
  exact ⟨all_real a0 _ _ _ _ h0, all_real a1 _ _ _ _ h1, all_real a3 _ _ _ _ h3, all_real a4 _ _ _ _ h4,
    all_real a5 _ _ _ _ h5, all_real a6 _ _ _ _ h6, all_real a7 _ _ _ _ h7, all_real a8 _ _ _ _ h8⟩

end Cert.Finite

end
-- ==== Proof.lean ====
/-
  Fused attention over two key tiles against plain softmax attention: the certificate's claims.

  The kernel projects queries, keys and values (`y = x · Wᵀ + b`), scores each of a batch's 64 query rows against its 4096
  keys in two tiles of 2048, and keeps per row a running maximum, a running sum of weights `exp (score − maximum)` and a
  running weighted sum of the values, rescaling what the first tile left by `exp (old maximum − new maximum)`; after the
  second tile it divides the weighted sum by the weight sum. The reference computes the same projections, subtracts each
  row's maximum over all 4096 scores, exponentiates, normalizes by the row's sum and contracts with the values.

  On the extended reals, for real inputs, both are `Σ_k exp (s_k − M) v_k / Σ_k exp (s_k − M)` for ANY real `M`: the
  factor `exp (M' − M)` between two choices of `M` cancels in the quotient, and the tiled form is this expression with `M`
  the second tile's running maximum (`Cert.OnlineSoftmax.two_tiles`). The scores agree because the kernel's scale constant
  is read, by the certificate's table, as the reciprocal of the reference's divisor (the ledger's one entry, `preserves`);
  dividing by a nonzero real is multiplying by its reciprocal. Finiteness of the inputs is what makes the scores, the
  maxima and the sums real numbers, where `exp` is additive and multiplication distributes over the sums.

  The kernel's result array as a function of its arguments is `Cert.KernelIdeal.KernelValue.run` (over the frame run),
  the reference's `Cert.ReferenceIdeal.RefValue.out_ref` (over its run read at an index), the identity between the two
  arrangements `Cert.Attention.tiled_eq_out`, and the precondition read back `Cert.Finite.real_inputs`.
-/
import proofs.«134487_j39676907885250_2_alg».proof.Defs
import proofs.«134487_j39676907885250_2_alg».proof.Proof.Gen.Kernel
import proofs.«134487_j39676907885250_2_alg».proof.Proof.Gen.Kernel.Skeleton
import proofs.«134487_j39676907885250_2_alg».proof.Proof.Gen.Kernel.Launch
import proofs.«134487_j39676907885250_2_alg».proof.Proof.Gen.Kernel.Points
import proofs.«134487_j39676907885250_2_alg».proof.Proof.Gen.Kernel.Frame
import proofs.«134487_j39676907885250_2_alg».proof.Proof.Gen.KernelIdeal
import proofs.«134487_j39676907885250_2_alg».proof.Proof.Gen.KernelIdeal.Skeleton
import proofs.«134487_j39676907885250_2_alg».proof.Proof.Gen.KernelIdeal.Launch
import proofs.«134487_j39676907885250_2_alg».proof.Proof.Gen.KernelIdeal.Points
import proofs.«134487_j39676907885250_2_alg».proof.Proof.Gen.KernelIdeal.Frame
import proofs.«134487_j39676907885250_2_alg».proof.Proof.Gen.ReferenceIdeal
import proofs.«134487_j39676907885250_2_alg».proof.Proof.Gen.KernelIdeal.Value
import proofs.«134487_j39676907885250_2_alg».proof.Proof.Gen.ReferenceIdeal.Run
import proofs.«134487_j39676907885250_2_alg».proof.Proof.Gen.ReferenceIdeal.Read
import proofs.«134487_j39676907885250_2_alg».proof.Proof.Gen.Pre_finite_inputs
import proofs.«134487_j39676907885250_2_alg».proof.Proof.KernelValue
import proofs.«134487_j39676907885250_2_alg».proof.Proof.RefValue
import proofs.«134487_j39676907885250_2_alg».proof.Proof.Finite
import Idealize.ShloMosaic.Adequacy
import Idealize.ShloMosaic.Init

noncomputable section

namespace Cert.Proof

open Idealize.ShloMosaic Idealize.ShloMosaic.ValueIdx Idealize.SL.Sem Cert.Kernel

/-- The word-level kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the scale constant the reciprocal of the reference's divisor, and the printed
    constant is that value on the extended reals. -/
theorem preserves : Cert.preserves_Kernel_KernelIdeal :=
  IdealRules.named_const.statement Cert.KernelIdeal.κ "recip_inv_scale" .f32 0x41B504F3#32
    ((268435456 / 11863283 : ℝ) : EReal) rfl

/-- From memories agreeing on the arguments, the kernel's result array (the tiled arrangement) and the reference's (the
    plain arrangement) are equal entry by entry: the inputs are real numbers by the precondition, and there the two
    arrangements agree. -/
theorem algebraic : Cert.algebraic_KernelIdeal_ReferenceIdeal := by
  intro m ρ m' ρ' hpre hagree
  refine ⟨fun c => Cert.KernelIdeal.KernelValue.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6, a7, a8⟩ := hagree c
  rw [Cert.ReferenceIdeal.Read.val_main_v26_eq, a0, a1, a3, a4, a5, a6, a7, a8]
  obtain ⟨r0, r1, r3, r4, r5, r6, r7, r8⟩ := Cert.Finite.real_inputs _ _ _ _ _ _ _ _ _ (hpre c)
  funext i
  obtain ⟨b, p, e, rfl⟩ : ∃ (b : Fin 32) (p : Fin 64) (e : Fin 512), i = ix3 b p e := ⟨i 0, i 1, i 2, eq_ix3 i⟩
  rw [Cert.ReferenceIdeal.RefValue.out_ref]
  exact (Cert.Attention.tiled_eq_out r0 r1 r3 r4 r5 r6 r7 r8 b p e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
